-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S40 .f32) (main_v33 : IVec S_ 1) : IVec S_ 1 :=
  let main_v34 : FVec F S40 .f32 := Host.absf main_arg9
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg6 : FVec F S3x128x128 .f32) (main_arg7 : FVec F S3x128 .f32) (main_arg8 : FVec F S128x40 .f32) (main_arg9 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S128x40 .f32 := Host.absf main_arg8
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S1600000 32) (main_arg2 : IVec S1600000 32) (main_arg3 : FVec F S1600000 .f32) (main_arg4 : FVec F S128x128 .f32) (main_arg5 : FVec F S128 .f32) (main_arg6 : FVec F S3x128x128 .f32) (main_arg7 : FVec F S3x128 .f32) (main_arg8 : FVec F S128x40 .f32) (main_arg9 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x40 : Shape := ⟨2, ![128, 40]⟩
abbrev S40 : Shape := ⟨1, ![40]⟩
abbrev S1x128 : Shape := ⟨2, ![1, 128]⟩
abbrev S1600000x1 : Shape := ⟨2, ![1600000, 1]⟩
abbrev S_ : Shape := ⟨0, ![]⟩
abbrev S1600000x128 : Shape := ⟨2, ![1600000, 128]⟩
abbrev S5000x128 : Shape := ⟨2, ![5000, 128]⟩
abbrev S1x128x128 : Shape := ⟨3, ![1, 128, 128]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 96
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S3x128x128, .f32⟩
  | .hbm, ⟨7, _⟩ => ⟨S3x128, .f32⟩
  | .hbm, ⟨8, _⟩ => ⟨S128x40, .f32⟩
  | .hbm, ⟨9, _⟩ => ⟨S40, .f32⟩
  | .hbm, ⟨10, _⟩ => ⟨S1x128, .f32⟩
  | .hbm, ⟨11, _⟩ => ⟨S1600000x1, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S50000x128, .f32⟩
  | .hbm, ⟨25, _⟩ => ⟨S1600000x1, .i32⟩
  | .hbm, ⟨26, _⟩ => ⟨S50000x128, .f32⟩
  | .hbm, ⟨27, _⟩ => ⟨S50000x128, .f32⟩
  | .hbm, ⟨28, _⟩ => ⟨S1600000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S1600000x128, .f32⟩
  | .hbm, ⟨39, _⟩ => ⟨S1600000x128, .f32⟩
  | .hbm, ⟨40, _⟩ => ⟨S_, .f32⟩
  | .hbm, ⟨41, _⟩ => ⟨S50000x128, .f32⟩
  | .hbm, ⟨42, _⟩ => ⟨S1600000x1, .i32⟩
  | .hbm, ⟨43, _⟩ => ⟨S50000x128, .f32⟩
  | .hbm, ⟨44, _⟩ => ⟨S1x128, .f32⟩
  | .hbm, ⟨45, _⟩ => ⟨S128, .f32⟩
  | .hbm, ⟨46, _⟩ => ⟨S1x128, .f32⟩
  | .hbm, ⟨47, _⟩ => ⟨S1x128x128, .f32⟩
  | .hbm, ⟨48, _⟩ => ⟨S128x128, .f32⟩
  | .hbm, ⟨49, _⟩ => ⟨S50000x128, .f32⟩
  | .hbm, ⟨50, _⟩ => ⟨S1600000x1, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S1600000x128, .f32⟩
  | .hbm, ⟨61, _⟩ => ⟨S1600000x128, .f32⟩
  | .hbm, ⟨62, _⟩ => ⟨S_, .f32⟩
  | .hbm, ⟨63, _⟩ => ⟨S50000x128, .f32⟩
  | .hbm, ⟨64, _⟩ => ⟨S1600000x1, .i32⟩
  | .hbm, ⟨65, _⟩ => ⟨S50000x128, .f32⟩
  | .hbm, ⟨66, _⟩ => ⟨S1x128, .f32⟩
  | .hbm, ⟨67, _⟩ => ⟨S128, .f32⟩
  | .hbm, ⟨68, _⟩ => ⟨S1x128, .f32⟩
  | .hbm, ⟨69, _⟩ => ⟨S1x128x128, .f32⟩
  | .hbm, ⟨70, _⟩ => ⟨S128x128, .f32⟩
  | .hbm, ⟨71, _⟩ => ⟨S50000x128, .f32⟩
  | .hbm, ⟨72, _⟩ => ⟨S1600000x1, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .f32⟩
  | .hbm, ⟨82, _⟩ => ⟨S1600000x128, .f32⟩
  | .hbm, ⟨83, _⟩ => ⟨S1600000x128, .f32⟩
  | .hbm, ⟨84, _⟩ => ⟨S_, .f32⟩
  | .hbm, ⟨85, _⟩ => ⟨S50000x128, .f32⟩
  | .hbm, ⟨86, _⟩ => ⟨S1600000x1, .i32⟩
  | .hbm, ⟨87, _⟩ => ⟨S50000x128, .f32⟩
  | .hbm, ⟨88, _⟩ => ⟨S1x128, .f32⟩
  | .hbm, ⟨89, _⟩ => ⟨S128, .f32⟩
  | .hbm, ⟨90, _⟩ => ⟨S1x128, .f32⟩
  | .hbm, ⟨91, _⟩ => ⟨S1x128x128, .f32⟩
  | .hbm, ⟨92, _⟩ => ⟨S128x128, .f32⟩
  | .hbm, ⟨93, _⟩ => ⟨S50000x128, .f32⟩
  | .hbm, ⟨94, _⟩ => ⟨S1x40, .f32⟩
  | .hbm, ⟨95, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x40, .f32⟩
  | .local _ .vmem, ⟨33, _⟩ => ⟨S1x40, .f32⟩
  | .local _ .vmem, ⟨34, _⟩ => ⟨S5000x40, .f32⟩
  | .local _ .vmem, ⟨35, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_4 : Ref sig .tc := ⟨.hbm, 51, rfl⟩
abbrev main_v35 : Ref sig .tc := ⟨.hbm, 52, rfl⟩
abbrev main_v36 : Ref sig .tc := ⟨.hbm, 53, rfl⟩
abbrev main_c_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_7 : Ref sig .tc := ⟨.hbm, 73, rfl⟩
abbrev main_v54 : Ref sig .tc := ⟨.hbm, 74, rfl⟩
abbrev main_v55 : Ref sig .tc := ⟨.hbm, 75, rfl⟩
abbrev main_c_8 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_9 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S128_S1x128 : S128.ShapeCasts S1x128
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S1x128x128_S128x128 : S1x128x128.ShapeCasts S128x128
  shapeCasts_S128x128_S128x128 : S128x128.ShapeCasts S128x128
  slices_S3x128_S1x128_1_0 : S3x128.Slices ![1, 0] S1x128
  slices_S3x128x128_S1x128x128_1_0_0 : S3x128x128.Slices ![1, 0, 0] S1x128x128
  slices_S3x128_S1x128_2_0 : S3x128.Slices ![2, 0] S1x128
  slices_S3x128x128_S1x128x128_2_0_0 : S3x128x128.Slices ![2, 0, 0] S1x128x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x40.size a ≤ S1x40.size a
  hwx4_2 : ∀ i : grid4.Coords, EltTy.bits .f32 = 32 ∨ (Rect.block (s := S1x40) S1x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x40.size a ≤ S50000x40.size a
  hwx4_3 : ∀ i : grid4.Coords, EltTy.bits .f32 = 32 ∨ (Rect.block (s := S50000x40) S5000x40.size (cc4_transform_3 i) (hinb4_3 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v33) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v52) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v65) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S5000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v71) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v71) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S1x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v73) S5000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x40 : Shape := ⟨2, ![128, 40]⟩
abbrev S40 : Shape := ⟨1, ![40]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S1x128x128 : Shape := ⟨3, ![1, 128, 128]⟩
abbrev S50000x40 : Shape := ⟨2, ![50000, 40]⟩
abbrev S1x40 : Shape := ⟨2, ![1, 40]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S3x128x128, .f32⟩
  | .hbm, ⟨7, _⟩ => ⟨S3x128, .f32⟩
  | .hbm, ⟨8, _⟩ => ⟨S128x40, .f32⟩
  | .hbm, ⟨9, _⟩ => ⟨S40, .f32⟩
  | .hbm, ⟨10, _⟩ => ⟨S1600000x1, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S50000x128, .f32⟩
  | .hbm, ⟨24, _⟩ => ⟨S1600000x1, .i32⟩
  | .hbm, ⟨25, _⟩ => ⟨S50000x128, .f32⟩
  | .hbm, ⟨26, _⟩ => ⟨S50000x128, .f32⟩
  | .hbm, ⟨27, _⟩ => ⟨S1x128, .f32⟩
  | .hbm, ⟨28, _⟩ => ⟨S50000x128, .f32⟩
  | .hbm, ⟨29, _⟩ => ⟨S50000x128, .f32⟩
  | .hbm, ⟨30, _⟩ => ⟨S_, .f32⟩
  | .hbm, ⟨31, _⟩ => ⟨S50000x128, .f32⟩
  | .hbm, ⟨32, _⟩ => ⟨S50000x128, .f32⟩
  | .hbm, ⟨33, _⟩ => ⟨S1x128x128, .f32⟩
  | .hbm, ⟨34, _⟩ => ⟨S128x128, .f32⟩
  | .hbm, ⟨35, _⟩ => ⟨S1x128, .f32⟩
  | .hbm, ⟨36, _⟩ => ⟨S128, .f32⟩
  | .hbm, ⟨37, _⟩ => ⟨S1600000x1, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S1600000x128, .f32⟩
  | .hbm, ⟨48, _⟩ => ⟨S1600000x128, .f32⟩
  | .hbm, ⟨49, _⟩ => ⟨S_, .f32⟩
  | .hbm, ⟨50, _⟩ => ⟨S50000x128, .f32⟩
  | .hbm, ⟨51, _⟩ => ⟨S1600000x1, .i32⟩
  | .hbm, ⟨52, _⟩ => ⟨S50000x128, .f32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128x128, .f32⟩
  | .hbm, ⟨62, _⟩ => ⟨S128x128, .f32⟩
  | .hbm, ⟨63, _⟩ => ⟨S1x128, .f32⟩
  | .hbm, ⟨64, _⟩ => ⟨S128, .f32⟩
  | .hbm, ⟨65, _⟩ => ⟨S1600000x1, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S1600000x128, .f32⟩
  | .hbm, ⟨76, _⟩ => ⟨S1600000x128, .f32⟩
  | .hbm, ⟨77, _⟩ => ⟨S_, .f32⟩
  | .hbm, ⟨78, _⟩ => ⟨S50000x128, .f32⟩
  | .hbm, ⟨79, _⟩ => ⟨S1600000x1, .i32⟩
  | .hbm, ⟨80, _⟩ => ⟨S50000x128, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S1x128x128, .f32⟩
  | .hbm, ⟨90, _⟩ => ⟨S128x128, .f32⟩
  | .hbm, ⟨91, _⟩ => ⟨S1x128, .f32⟩
  | .hbm, ⟨92, _⟩ => ⟨S128, .f32⟩
  | .hbm, ⟨93, _⟩ => ⟨S1600000x1, .f32⟩
  | .hbm, ⟨94, _⟩ => ⟨S_, .i32⟩
  | .hbm, ⟨95, _⟩ => ⟨S1600000, .i32⟩
  | .hbm, ⟨96, _⟩ => ⟨S1600000, .i1⟩
  | .hbm, ⟨97, _⟩ => ⟨S_, .i32⟩
  | .hbm, ⟨98, _⟩ => ⟨S1600000, .i32⟩
  | .hbm, ⟨99, _⟩ => ⟨S1600000, .i32⟩
  | .hbm, ⟨100, _⟩ => ⟨S1600000, .i32⟩
  | .hbm, ⟨101, _⟩ => ⟨S1600000x1, .i32⟩
  | .hbm, ⟨102, _⟩ => ⟨S1600000x128, .f32⟩
  | .hbm, ⟨103, _⟩ => ⟨S1600000x128, .f32⟩
  | .hbm, ⟨104, _⟩ => ⟨S1600000x128, .f32⟩
  | .hbm, ⟨105, _⟩ => ⟨S_, .f32⟩
  | .hbm, ⟨106, _⟩ => ⟨S50000x128, .f32⟩
  | .hbm, ⟨107, _⟩ => ⟨S1600000x1, .i32⟩
  | .hbm, ⟨108, _⟩ => ⟨S50000x128, .f32⟩
  | .hbm, ⟨109, _⟩ => ⟨S50000x128, .f32⟩
  | .hbm, ⟨110, _⟩ => ⟨S1x128, .f32⟩
  | .hbm, ⟨111, _⟩ => ⟨S50000x128, .f32⟩
  | .hbm, ⟨112, _⟩ => ⟨S50000x128, .f32⟩
  | .hbm, ⟨113, _⟩ => ⟨S_, .f32⟩
  | .hbm, ⟨114, _⟩ => ⟨S50000x128, .f32⟩
  | .hbm, ⟨115, _⟩ => ⟨S50000x128, .f32⟩
  | .hbm, ⟨116, _⟩ => ⟨S50000x128, .f32⟩
  | .hbm, ⟨117, _⟩ => ⟨S50000x40, .f32⟩
  | .hbm, ⟨118, _⟩ => ⟨S1x40, .f32⟩
  | .hbm, ⟨119, _⟩ => ⟨S50000x40, .f32⟩
  | .hbm, ⟨120, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_1 : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call1_cst : Ref sig .tc := ⟨.hbm, 57, rfl⟩
abbrev main_call1_v0 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_4 : Ref sig .tc := ⟨.hbm, 66, rfl⟩
abbrev main_v46 : Ref sig .tc := ⟨.hbm, 67, rfl⟩
abbrev main_v47 : Ref sig .tc := ⟨.hbm, 68, rfl⟩
abbrev main_c_5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_6 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call2_cst : Ref sig .tc := ⟨.hbm, 85, rfl⟩
abbrev main_call2_v0 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_7 : Ref sig .tc := ⟨.hbm, 94, rfl⟩
abbrev main_v69 : Ref sig .tc := ⟨.hbm, 95, rfl⟩
abbrev main_v70 : Ref sig .tc := ⟨.hbm, 96, rfl⟩
abbrev main_c_8 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_9 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_call3_cst : Ref sig .tc := ⟨.hbm, 113, rfl⟩
abbrev main_call3_v0 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelRun.lean ====
/-
  The idealized kernel's run, with its result named.

  The program is ten segments: five stretches of host operations, each followed by a pipelined region.  The buffer
  contents at every segment boundary are a fold from the launch memory: a stretch applies its operations, a region
  replaces its arrays by what its write-backs leave and keeps every other buffer.  The last boundary's contents are
  "W10".  Every weakly fair execution terminates with every unscoped buffer at its "W10" contents; read at the result
  array and at the ten arguments this is the run below: the result array ends at "W10 … main_v73", and the arguments
  end as launched.
-/
import proofs.«167338_j15195594293931_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array holds the last boundary's contents and
    the arguments are as launched. -/
theorem run_result : θ_run defs (onTc (τ := τ) (main (F := F))) ⟨m, fun _ => 0, ρ⟩ (fun r => ∀ c : Dev nD,
      r.2.mem ((c.tc : Thread nD τ).loc main_v73) = W10 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v73 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.Whole

end
-- ==== Proof.LibRowWise.lean ====
/-
  Row-wise layers on rank-2 arrays of extended reals.

  Every layer of the network is ROW-WISE: row r of its result is a function of row r of its input (and of a small
  parameter array).  "rowMap f x" applies a row function "f" to every row of "x".  The three row functions:
  "linRow w" (the row times the matrix "w": entry c is the sum over l of z l * w (l, c)), "reluRow b" (add the
  one-row array "b", then the maximum with zero) and "lsmRow b" (add "b", subtract the row's maximum, then subtract
  the logarithm of the sum of the exponentials: the logarithm of the softmax).  The row's maximum is the fold of
  "max" from minus infinity, which is how both a lane reduction and a host reduction read it.

  A row-wise layer commutes with cutting out a band of rows ("rowMap_band"): the band of the result is the result
  of the band.  That one fact is what lets a computation done band by band be compared with the whole computation.
-/
import Idealize.ShloMosaic.Lib.ValueIdx
import Idealize.ShloMosaic.PureOps.Ideal.Laws

noncomputable section

open scoped BigOperators

namespace GcnSpec

open Idealize.ShloMosaic Idealize.ShloMosaic.ValueIdx

/-- An n × k array of extended reals. -/
abbrev Arr (n k : ℕ) : Type := (⟨2, ![n, k]⟩ : Shape).Idx → EReal

/-- Row r of an array, as a function of the column. -/
def row {n k : ℕ} (x : Arr n k) (r : Fin n) : Fin k → EReal := fun l => x (ix2 r l)

/-- A row function applied to every row. -/
def rowMap {n k q : ℕ} (f : (Fin k → EReal) → Fin q → EReal) (x : Arr n k) : Arr n q :=
  fun i => f (row x ⟨(i 0).val, idx2_lt0 i⟩) ⟨(i 1).val, idx2_lt1 i⟩

theorem rowMap_ix2 {n k q : ℕ} (f : (Fin k → EReal) → Fin q → EReal) (x : Arr n k) (r : Fin n) (c : Fin q) :
    rowMap f x (ix2 r c) = f (row x r) c := rfl

/-- To show an array is "rowMap f x" it is enough to read it at every pair of coordinates. -/
theorem eq_rowMap {n k q : ℕ} (f : (Fin k → EReal) → Fin q → EReal) (x : Arr n k) (y : Arr n q)
    (h : ∀ (r : Fin n) (c : Fin q), y (ix2 r c) = f (row x r) c) : y = rowMap f x := by
  funext i
  obtain ⟨r, c, rfl⟩ : ∃ (r : Fin n) (c : Fin q), i = ix2 r c := ⟨i 0, i 1, eq_ix2 i⟩
  rw [h, rowMap_ix2]

/-- A band of rows: the band of the result is the result of the band.  "e₁" and "e₂" send an index of the band to
    the index of the whole array "o" rows further down, in the same column. -/
theorem rowMap_band {N n k q : ℕ} (f : (Fin k → EReal) → Fin q → EReal) (X : Arr N k) (o : ℕ)
    (e₁ : (⟨2, ![n, k]⟩ : Shape).Idx → (⟨2, ![N, k]⟩ : Shape).Idx)
    (e₂ : (⟨2, ![n, q]⟩ : Shape).Idx → (⟨2, ![N, q]⟩ : Shape).Idx)
    (h10 : ∀ j, (e₁ j 0).val = o + (j 0).val) (h11 : ∀ j, (e₁ j 1).val = (j 1).val)
    (h20 : ∀ j, (e₂ j 0).val = o + (j 0).val) (h21 : ∀ j, (e₂ j 1).val = (j 1).val)
    (j : (⟨2, ![n, q]⟩ : Shape).Idx) :
    rowMap f X (e₂ j) = rowMap f (fun y => X (e₁ y)) j := by
  unfold rowMap
  have hr : row X ⟨(e₂ j 0).val, idx2_lt0 (e₂ j)⟩ = row (fun y => X (e₁ y)) ⟨(j 0).val, idx2_lt0 j⟩ := by
    funext l
    unfold row
    refine congrArg X (funext fun a => Fin.ext ?_)
    match a with
    | ⟨0, _⟩ => show (e₂ j 0).val = (e₁ (ix2 ⟨(j 0).val, idx2_lt0 j⟩ l) 0).val; rw [h20, h10]; rfl
    | ⟨1, _⟩ => show l.val = (e₁ (ix2 ⟨(j 0).val, idx2_lt0 j⟩ l) 1).val; rw [h11]; rfl
  have hc : (⟨(e₂ j 1).val, idx2_lt1 (e₂ j)⟩ : Fin q) = ⟨(j 1).val, idx2_lt1 j⟩ := Fin.ext (h21 j)
  rw [hr, hc]

/-! ## The three row functions -/

/-- The row times a matrix. -/
def linRow {k q : ℕ} (w : Arr k q) (z : Fin k → EReal) : Fin q → EReal := fun c => ∑ l : Fin k, z l * w (ix2 l c)

/-- The float zero and minus infinity, kept as the words the programs spell them with. -/
def zeroF : EReal := Ideal.ofBits .f32 0x00000000#32
def negInfF : EReal := Ideal.ofBits .f32 0xFF800000#32

/-- Add the one-row array, then the maximum with zero. -/
def reluRow {k : ℕ} (b : Arr 1 k) (z : Fin k → EReal) : Fin k → EReal :=
  fun c => max (z c + b (ix2 (0 : Fin 1) c)) zeroF

/-- A row's maximum: the fold of "max" from minus infinity. -/
def rowMax {k : ℕ} (y : Fin k → EReal) : EReal := (Finset.univ : Finset (Fin k)).fold max negInfF y

/-- The row shifted by its maximum. -/
def shifted {k : ℕ} (y : Fin k → EReal) : Fin k → EReal := fun c => y c - rowMax y

/-- The logarithm of the softmax of a row. -/
def logSoftmax {k : ℕ} (y : Fin k → EReal) : Fin k → EReal :=
  fun c => shifted y c - Ideal.log (∑ l : Fin k, Ideal.exp (shifted y l))

/-- Add the one-row array, then the logarithm of the softmax. -/
def lsmRow {k : ℕ} (b : Arr 1 k) (z : Fin k → EReal) : Fin k → EReal :=
  logSoftmax fun c => z c + b (ix2 (0 : Fin 1) c)

/-- Minus infinity is the unit of "max". -/
theorem max_negInfF (y : EReal) : max negInfF y = y := by
  unfold negInfF; simp [Ideal.ofBits, Ideal.ieee]

theorem zeroF_eq : zeroF = 0 := Ideal.ofBits_zero_f32

/-! ## The layers -/

/-- The linear layer: every row times the matrix. -/
def lin {n k q : ℕ} (x : Arr n k) (w : Arr k q) : Arr n q := rowMap (linRow w) x
/-- Bias, then the maximum with zero. -/
def relu {n k : ℕ} (a : Arr n k) (b : Arr 1 k) : Arr n k := rowMap (reluRow b) a
/-- Bias, then the logarithm of the softmax along the row. -/
def lsm {n k : ℕ} (a : Arr n k) (b : Arr 1 k) : Arr n k := rowMap (lsmRow b) a

end GcnSpec

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibDot2.lean ====
/-
  The plain matrix product's dimension numbers, read at coordinates.

  A product of an n × k array with a k × q array that contracts the columns of the left operand against the rows of the
  right one, with no batch axes, carries the dimension numbers "left contracting [1], right contracting [0], left free
  [0], right free [1]".  For any record with these lists: one axis is contracted and its extent is k; the left operand is
  read at (row of the result, contraction position) and the right operand at (contraction position, column of the result).
-/
import Idealize.ShloMosaic.Lib.ValueIdx
import Idealize.ShloMosaic.PureOps.Ideal.Laws

namespace Dot2

open Idealize.ShloMosaic Idealize.ShloMosaic.ValueIdx

variable {n k q : ℕ} (d : DotDims (⟨2, ![n, k]⟩ : Shape) (⟨2, ![k, q]⟩ : Shape) (⟨2, ![n, q]⟩ : Shape))
  (h1 : d.lhsContracting = [1]) (h2 : d.rhsContracting = [0]) (h3 : d.lhsNonContracting = [0])
  (h4 : d.rhsNonContracting = [1]) (h5 : d.lhsBatch = []) (h6 : d.rhsBatch = [])

include h1 in
/-- One axis is contracted. -/
theorem rank_contr : d.contr.rank = 1 := by rw [d.rank_contr, h1]; rfl

include h1 in
/-- Its extent is the left operand's number of columns. -/
theorem size_contr (h0 : 0 < d.contr.rank) : d.contr.size ⟨0, h0⟩ = k := by
  have := d.size_contr 0 (by rw [h1]; exact Nat.one_pos)
  rw [this]
  simp only [h1]
  rfl

include h1 in
/-- The left operand's column is the contraction position. -/
theorem lhs1 (h0 : 0 < d.contr.rank) (j : (⟨2, ![n, q]⟩ : Shape).Idx) (c : d.contr.Idx) :
    (d.lhsIdx j c 1).val = (c ⟨0, h0⟩).val := d.lhsIdx_val_of_single h1 j c

include h2 in
/-- The right operand's row is the contraction position. -/
theorem rhs0 (h0 : 0 < d.contr.rank) (j : (⟨2, ![n, q]⟩ : Shape).Idx) (c : d.contr.Idx) :
    (d.rhsIdx j c 0).val = (c ⟨0, h0⟩).val := d.rhsIdx_val_of_single h2 j c

include h3 h5 in
/-- The left operand's row is the result's row. -/
theorem lhs0 (j : (⟨2, ![n, q]⟩ : Shape).Idx) (c : d.contr.Idx) : (d.lhsIdx j c 0).val = (j 0).val := by
  unfold DotDims.lhsIdx
  have hb : (0 : Fin 2) ∉ d.lhsBatch := by rw [h5]; exact List.not_mem_nil
  have hn : (0 : Fin 2) ∈ d.lhsNonContracting := by rw [h3]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3])

include h4 h6 h3 h5 in
/-- The right operand's column is the result's column. -/
theorem rhs1 (j : (⟨2, ![n, q]⟩ : Shape).Idx) (c : d.contr.Idx) : (d.rhsIdx j c 1).val = (j 1).val := by
  unfold DotDims.rhsIdx
  have hb : (1 : Fin 2) ∉ d.rhsBatch := by rw [h6]; exact List.not_mem_nil
  have hn : (1 : Fin 2) ∈ d.rhsNonContracting := by rw [h4]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3, h4])

end Dot2
-- ==== Proof.LibMlp.lean ====
/-
  A two-layer perceptron applied to every row of an array of extended reals, and the chains of vector operations
  that compute it.

  One row "z" of width d goes through the network as

      z  ↦  z · W1            (a row of width h: entry c is the sum over l of z l * W1 (l, c))
         ↦  max (· + b1, 0)   (the one-row array b1 added entry by entry, then the maximum with zero)
         ↦  · · W2            (a row of width a)
         ↦  · + b2            (the one-row array b2 added entry by entry).

  "net x W1 b1 W2 b2" applies this to every row of the n × d array "x".  Because each row of the result depends on
  the same row of "x" only, a band of rows of the result is the result of the band ("net_band"): this is what lets a
  computation carried out on bands of 8192 rows be compared with one carried out on bands of 1024 rows, both being
  bands of the one array "net" of all 65536 rows.

  A matrix unit's product onto the zero accumulator, contracting the left operand's columns against the right
  operand's rows, is "every row times the matrix" ("matmul_zero_lin"); adding a broadcast one-row array and taking
  the maximum with a broadcast zero is "hidden" on every row ("hidden_chain"); adding a broadcast one-row array is
  "shift" on every row ("shift_chain").  None of this uses finiteness: both sides are the same sums of the same
  products, so the statements hold for all extended reals.
-/
import Idealize.ShloMosaic.Lib.ValueIdx
import Idealize.ShloMosaic.Lib.ValueLayout
import Idealize.ShloMosaic.PureOps.Ideal.Laws
import proofs.«167338_j15195594293931_1_alg».proof.Proof.LibRowWise
import proofs.«167338_j15195594293931_1_alg».proof.Proof.LibMatProd
import proofs.«167338_j15195594293931_1_alg».proof.Proof.LibDot2

noncomputable section

open scoped BigOperators

namespace Mlp

open Idealize.ShloMosaic Idealize.ShloMosaic.ValueIdx GcnSpec

/-! ## The network on one row and on every row -/

/-- Add the one-row array "b" to a row, then take the maximum with zero. -/
def hidden {k : ℕ} (b : Arr 1 k) (z : Fin k → EReal) : Fin k → EReal :=
  fun c => max (z c + b (ix2 (0 : Fin 1) c)) 0

/-- Add the one-row array "b" to a row. -/
def shift {k : ℕ} (b : Arr 1 k) (z : Fin k → EReal) : Fin k → EReal :=
  fun c => z c + b (ix2 (0 : Fin 1) c)

/-- One row through the two layers. -/
def netRow {d h a : ℕ} (w1 : Arr d h) (b1 : Arr 1 h) (w2 : Arr h a) (b2 : Arr 1 a) (z : Fin d → EReal) :
    Fin a → EReal :=
  shift b2 (linRow w2 (hidden b1 (linRow w1 z)))

/-- Every row through the two layers. -/
def net {n d h a : ℕ} (x : Arr n d) (w1 : Arr d h) (b1 : Arr 1 h) (w2 : Arr h a) (b2 : Arr 1 a) : Arr n a :=
  rowMap (netRow w1 b1 w2 b2) x

/-- Row r of a row-wise layer's result is the row function of row r. -/
theorem row_rowMap {n k q : ℕ} (f : (Fin k → EReal) → Fin q → EReal) (x : Arr n k) (r : Fin n) :
    row (rowMap f x) r = f (row x r) := rfl

/-- Two row-wise layers in a row are one row-wise layer. -/
theorem rowMap_rowMap {n k q p : ℕ} (f : (Fin q → EReal) → Fin p → EReal) (g : (Fin k → EReal) → Fin q → EReal)
    (x : Arr n k) : rowMap f (rowMap g x) = rowMap (fun z => f (g z)) x := rfl

/-- The four layers one after the other are the network. -/
theorem layers_eq_net {n d h a : ℕ} (x : Arr n d) (w1 : Arr d h) (b1 : Arr 1 h) (w2 : Arr h a) (b2 : Arr 1 a) :
    rowMap (shift b2) (rowMap (linRow w2) (rowMap (hidden b1) (rowMap (linRow w1) x))) = net x w1 b1 w2 b2 := rfl

/-- A band of rows of the network's result is the network's result on the band.  "e₁" and "e₂" send an index of the
    band to the index of the whole array "o" rows further down, in the same column. -/
theorem net_band {N n d h a : ℕ} (X : Arr N d) (w1 : Arr d h) (b1 : Arr 1 h) (w2 : Arr h a) (b2 : Arr 1 a) (o : ℕ)
    (e₁ : (⟨2, ![n, d]⟩ : Shape).Idx → (⟨2, ![N, d]⟩ : Shape).Idx)
    (e₂ : (⟨2, ![n, a]⟩ : Shape).Idx → (⟨2, ![N, a]⟩ : Shape).Idx)
    (h10 : ∀ j, (e₁ j 0).val = o + (j 0).val) (h11 : ∀ j, (e₁ j 1).val = (j 1).val)
    (h20 : ∀ j, (e₂ j 0).val = o + (j 0).val) (h21 : ∀ j, (e₂ j 1).val = (j 1).val)
    (j : (⟨2, ![n, a]⟩ : Shape).Idx) :
    net (fun y => X (e₁ y)) w1 b1 w2 b2 j = net X w1 b1 w2 b2 (e₂ j) :=
  (rowMap_band (netRow w1 b1 w2 b2) X o e₁ e₂ h10 h11 h20 h21 j).symm

/-! ## The operation chains -/

/-- A matrix unit's product of rank-2 operands onto the zero accumulator, its dimension numbers those of the plain
    product (left columns against right rows, no batch axes), is every row of the left operand times the right one. -/
theorem matmul_zero_lin {n k q : ℕ} {φ₁ φ₂ : FTy}
    (dd : DotDims (⟨2, ![n, k]⟩ : Shape) (⟨2, ![k, q]⟩ : Shape) (⟨2, ![n, q]⟩ : Shape)) (prec : Option ContractPrecision)
    (h1 : dd.lhsContracting = [1]) (h2 : dd.rhsContracting = [0]) (h3 : dd.lhsNonContracting = [0])
    (h4 : dd.rhsNonContracting = [1]) (h5 : dd.lhsBatch = []) (h6 : dd.rhsBatch = [])
    (lhs : FVec Ideal (⟨2, ![n, k]⟩ : Shape) φ₁) (rhs : FVec Ideal (⟨2, ![k, q]⟩ : Shape) φ₂) :
    matmul dd prec lhs rhs (constant (F := Ideal) (⟨2, ![n, q]⟩ : Shape) .f32 0x00000000#32)
      = rowMap (linRow rhs) lhs := by
  have hr : dd.contr.rank = 1 := Dot2.rank_contr dd h1
  have h0 : 0 < dd.contr.rank := by omega
  exact eq_rowMap _ _ _ fun r c =>
    (MatProd.matmul_zero_entry dd prec hr (Dot2.size_contr dd h1 h0) (Dot2.lhs0 dd h3 h5) (Dot2.lhs1 dd h1 h0)
      (Dot2.rhs0 dd h2 h0) (Dot2.rhs1 dd h3 h4 h5 h6) lhs rhs r c).trans rfl

/-- A one-row array broadcast over the rows and added, then the maximum with a splat scalar that is zero. -/
theorem hidden_chain {n k : ℕ} {φ : FTy} (z : FVec Ideal (⟨2, ![n, k]⟩ : Shape) φ)
    (b : FVec Ideal (⟨2, ![1, k]⟩ : Shape) φ) (hb : (⟨2, ![1, k]⟩ : Shape).Broadcasts ⟨2, ![n, k]⟩)
    (zero : Ideal φ) (hz : (zero : EReal) = 0) :
    maximumf (addf z (broadcastTo ⟨2, ![n, k]⟩ b hb)) (broadcast ⟨2, ![n, k]⟩ zero) = rowMap (hidden b) z := by
  refine eq_rowMap _ _ _ fun r c => ?_
  rw [maximumf_apply, addf_apply, broadcast_apply, broadcastTo_1b_ab_apply, hz]
  rfl

/-- A one-row array broadcast over the rows and added. -/
theorem shift_chain {n k : ℕ} {φ : FTy} (z : FVec Ideal (⟨2, ![n, k]⟩ : Shape) φ)
    (b : FVec Ideal (⟨2, ![1, k]⟩ : Shape) φ) (hb : (⟨2, ![1, k]⟩ : Shape).Broadcasts ⟨2, ![n, k]⟩) :
    addf z (broadcastTo ⟨2, ![n, k]⟩ b hb) = rowMap (shift b) z := by
  refine eq_rowMap _ _ _ fun r c => ?_
  rw [addf_apply, broadcastTo_1b_ab_apply]
  rfl

/-- The bf16 zero word denotes zero. -/
theorem zero_bf16 : (FloatOps.ofBits (F := Ideal) .bf16 0x0000#16 : EReal) = 0 := by
  rw [Ideal.ofBits_def]; simp [Ideal.ofBits, Ideal.ieee]

/-- The f32 zero word denotes zero. -/
theorem zero_f32 : (FloatOps.ofBits (F := Ideal) .f32 0x00000000#32 : EReal) = 0 := by
  rw [Ideal.ofBits_def]; exact Ideal.ofBits_zero_f32

end Mlp

end
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.LibRowOps.lean ====
/-
  The programs' operation chains as row-wise layers.

  Each lemma takes a chain of vector operations exactly as one of the two programs spells it, over arrays with ANY
  number "n" of rows, and says it is a layer of GcnSpec: a matrix unit's product onto the zero accumulator and the
  host's dot_general are both "lin"; bias-add followed by the maximum with zero is "relu", whether the bias arrives
  as a loaded one-row block broadcast over the rows or as a vector broadcast twice on the host; and the shifted
  log-sum-exp chain is the logarithm of the softmax of every row, whether the row's maximum and the row's sum are
  lane reductions or host reductions (the host takes one more maximum with minus infinity, which changes nothing).
  All reductions are over the second axis; a reduced vector is put back beside the rows as a one-column array.
-/
import Idealize.ShloMosaic.Lib.Pipeline.Value
import Idealize.ShloMosaic.Lib.ValueIdx
import Idealize.ShloMosaic.Lib.ValueLayout
import Idealize.ShloMosaic.PureOps.Ideal.Laws
import proofs.«167338_j15195594293931_1_alg».proof.Proof.LibRowWise
import proofs.«167338_j15195594293931_1_alg».proof.Proof.LibMatProd
import proofs.«167338_j15195594293931_1_alg».proof.Proof.LibRowCol
import proofs.«167338_j15195594293931_1_alg».proof.Proof.LibLayout

noncomputable section

open scoped BigOperators

namespace GcnOps

open Idealize.ShloMosaic Idealize.ShloMosaic.ValueIdx GcnSpec

variable {n k q : ℕ}

/-! ## The linear layer -/

/-- A matrix unit's product of rank-2 operands onto the zero accumulator is the linear layer. -/
theorem matmul_zero_eq_lin {φ₁ φ₂ : FTy}
    (d : DotDims (⟨2, ![n, k]⟩ : Shape) (⟨2, ![k, q]⟩ : Shape) (⟨2, ![n, q]⟩ : Shape)) (prec : Option ContractPrecision)
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (lhs : FVec Ideal (⟨2, ![n, k]⟩ : Shape) φ₁) (rhs : FVec Ideal (⟨2, ![k, q]⟩ : Shape) φ₂) :
    FloatOps.matmul d prec lhs rhs (constant (F := Ideal) (⟨2, ![n, q]⟩ : Shape) .f32 0x00000000#32) = lin lhs rhs :=
  eq_rowMap _ _ _ fun r c => (MatProd.matmul_zero_entry d prec hr hs hl0 hl1 hr0 hr1 lhs rhs r c).trans rfl

/-- The host's dot_general of rank-2 operands, one axis contracted, is the linear layer. -/
theorem dotGeneral_eq_lin {φ₁ φ₂ : FTy}
    (d : DotDims (⟨2, ![n, k]⟩ : Shape) (⟨2, ![k, q]⟩ : Shape) (⟨2, ![n, q]⟩ : Shape)) (prec : Option ContractPrecision)
    (sched : HostSchedule)
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (lhs : FVec Ideal (⟨2, ![n, k]⟩ : Shape) φ₁) (rhs : FVec Ideal (⟨2, ![k, q]⟩ : Shape) φ₂) :
    FloatOps.dotGeneral d prec sched lhs rhs = lin lhs rhs := by
  refine eq_rowMap _ _ _ fun r c => ?_
  rw [Ideal.dotGeneral_apply, ← Equiv.sum_comp (contrEquiv1 d k hr hs).symm]
  show _ = ∑ l : Fin k, lhs (ix2 r l) * rhs (ix2 l c)
  refine Finset.sum_congr rfl fun l _ => ?_
  have hk := contrEquiv1_symm_val d k hr hs l
  have el : d.lhsIdx (ix2 r c) ((contrEquiv1 d k hr hs).symm l) = ix2 r l := funext fun a => Fin.ext (by
    match a with
    | ⟨0, _⟩ => exact hl0 _ _
    | ⟨1, _⟩ => exact (hl1 _ _).trans hk)
  have er : d.rhsIdx (ix2 r c) ((contrEquiv1 d k hr hs).symm l) = ix2 l c := funext fun a => Fin.ext (by
    match a with
    | ⟨0, _⟩ => exact (hr0 _ _).trans hk
    | ⟨1, _⟩ => exact hr1 _ _)
  rw [el, er]

/-! ## Bias, then the maximum with zero -/

/-- As a kernel body spells it: the block and the one-row bias block loaded (casts to their own shapes), the bias
    broadcast over the rows, the zero a scalar splat. -/
theorem relu_body (x : FVec Ideal (⟨2, ![n, k]⟩ : Shape) .f32) (b : FVec Ideal (⟨2, ![1, k]⟩ : Shape) .f32)
    (h1 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x h1) (broadcastTo ⟨2, ![n, k]⟩ (shapeCast ⟨2, ![1, k]⟩ b h2) hb))
      (broadcast ⟨2, ![n, k]⟩ (Scalar.ofBits (F := Ideal) .f32 0x00000000#32)) = relu x b := by
  rw [shapeCast_self, shapeCast_self]
  refine eq_rowMap _ _ _ fun r c => ?_
  rw [maximumf_apply, addf_apply, broadcast_apply, broadcastTo_1b_ab_apply]
  rfl

/-- The one-row view of a vector, broadcast over the rows on the host in two steps, read at coordinates. -/
theorem bias_host_apply (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (hsc : (⟨1, ![k]⟩ : Shape).ShapeCasts ⟨2, ![1, k]⟩) (r : Fin n) (c : Fin k) :
    broadcastInDim (⟨2, ![n, k]⟩ : Shape) (![0, 1] : Fin 2 → Fin 2) h2
        (broadcastInDim (⟨2, ![1, k]⟩ : Shape) (![1] : Fin 1 → Fin 2) h1 b) (ix2 r c)
      = shapeCast ⟨2, ![1, k]⟩ b hsc (ix2 (0 : Fin 1) c) := by
  have hc := c.isLt
  rw [broadcastInDim_apply _ h2 _ (ix2 r c) (ix2 (0 : Fin 1) c) (fun a => match a with
      | ⟨0, _⟩ => by show (0 : ℕ) = if (1 : ℕ) = 1 then 0 else r.val; rw [if_pos rfl]
      | ⟨1, _⟩ => by show c.val = if k = 1 then 0 else c.val; split <;> omega),
    broadcastInDim_apply _ h1 b (ix2 (0 : Fin 1) c) (ix1 c) (fun a => match a with
      | ⟨0, _⟩ => by show c.val = if k = 1 then 0 else c.val; split <;> omega),
    shapeCast_a_1a_apply]

/-- As the host spells it: the bias vector broadcast in two steps, the zero a rank-0 constant broadcast. -/
theorem relu_host (a : FVec Ideal (⟨2, ![n, k]⟩ : Shape) .f32) (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (h0 : (⟨0, ![]⟩ : Shape).BroadcastsInDim (⟨2, ![n, k]⟩ : Shape) (![] : Fin 0 → Fin 2))
    (hsc : (⟨1, ![k]⟩ : Shape).ShapeCasts ⟨2, ![1, k]⟩) :
    maximumf (addf a (broadcastInDim (⟨2, ![n, k]⟩ : Shape) (![0, 1] : Fin 2 → Fin 2) h2
        (broadcastInDim (⟨2, ![1, k]⟩ : Shape) (![1] : Fin 1 → Fin 2) h1 b)))
      (broadcastInDim (⟨2, ![n, k]⟩ : Shape) (![] : Fin 0 → Fin 2) h0 (constant (F := Ideal) (⟨0, ![]⟩ : Shape) .f32 0x00000000#32))
      = relu a (shapeCast ⟨2, ![1, k]⟩ b hsc) := by
  refine eq_rowMap _ _ _ fun r c => ?_
  rw [maximumf_apply, addf_apply, bias_host_apply b h1 h2 hsc r c,
    broadcastInDim_apply _ h0 _ (ix2 r c) ix0 (fun a => a.elim0), constant_apply]
  rfl

/-! ## The logarithm of the softmax -/

/-- The exponential and the logarithm, a body's and the host's, read at an index. -/
theorem exp_apply {s : Shape} (v : FVec Ideal s .f32) (i : s.Idx) : exp v i = Ideal.exp (v i) := rfl
theorem log_apply {s : Shape} (v : FVec Ideal s .f32) (i : s.Idx) : log v i = Ideal.log (v i) := rfl
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-- Index (r, l) is the reduced index r with the coordinate l put back on axis 1. -/
theorem lift1 (h : (⟨2, ![n, k]⟩ : Shape).Reduces [1] (⟨1, ![n]⟩ : Shape)) (r : Fin n)
    (l : Fin ((⟨2, ![n, k]⟩ : Shape).size 1)) : h.lift (ix1 r) l = ix2 r (⟨l.val, l.isLt⟩ : Fin k) :=
  funext fun ax => Fin.ext (by match ax with | ⟨0, _⟩ => rfl | ⟨1, _⟩ => rfl)

/-- A lane maximum along the row, from minus infinity, is the row's maximum. -/
theorem rowMax_body (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ) (r : Fin n) :
    multiReduction .maximumf [1] (⟨1, ![n]⟩ : Shape) y 0xFF800000#32 hR hφ hacc (ix1 r) = rowMax (row y r) := by
  refine (Ideal.multiReduction_maximumf_single y 0xFF800000#32 hR hφ hacc (ix1 r)).trans ?_
  have hf : (y ∘ hR.lift (ix1 r)) = fun l : Fin k => y (ix2 r l) := funext fun l => congrArg y (lift1 hR r l)
  exact congrArg (fun f => Finset.fold max negInfF f (Finset.univ : Finset (Fin k))) hf

/-- The host's reduce with a maximum body along the row, from minus infinity, is the row's maximum. -/
theorem rowMax_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel) (r : Fin n) :
    Host.reduce FloatOps.maximumf y (constant (F := Ideal) (⟨0, ![]⟩ : Shape) .f32 0xFF800000#32) hR' hu (ix1 r)
      = rowMax (row y r) := by
  rw [Host.reduce_eq_fold_single FloatOps.maximumf y _ hR' hR hu]
  have hf : (y ∘ hR.lift (ix1 r)) = fun l : Fin k => y (ix2 r l) := funext fun l => congrArg y (lift1 hR r l)
  exact congrArg (fun f => Finset.fold max negInfF f (Finset.univ : Finset (Fin k))) hf

/-- A lane sum along the row. -/
theorem rowSum_body (y : FVec Ideal (⟨2, ![n, k]⟩ : Shape) .f32)
    (hR : (⟨2, ![n, k]⟩ : Shape).Reduces [1] (⟨1, ![n]⟩ : Shape)) (hφ : FKind.Formats .f32)
    (hacc : (0x00000000#32 : BitVec 32) = FKind.add.neutral .f32 hφ) (r : Fin n) :
    multiReduction .add [1] (⟨1, ![n]⟩ : Shape) y 0x00000000#32 hR hφ hacc (ix1 r) = ∑ l : Fin k, y (ix2 r l) :=
  PushPull.Layout.sum_ab_1 y 0x00000000#32 hR hφ hacc r

/-- The host's sum along the row, from zero. -/
theorem rowSum_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel) (r : Fin n) :
    Host.reduceAdd y (constant (F := Ideal) (⟨0, ![]⟩ : Shape) .f32 0x00000000#32) hR' hu (ix1 r) = ∑ l : Fin k, y (ix2 r l) := by
  simp only [Host.reduceAdd, Ideal.hostReduceAdd_def]
  rw [Ideal.hostReduceAdd_single hR' hR, constant_apply, Ideal.ofBits_zero_f32, zero_add]
  exact Finset.sum_congr rfl fun l _ => congrArg y (lift1 hR r l)

/-- The row shifted by its maximum, as a kernel body spells it. -/
def shiftBody (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, k]⟩) :
    FVec Ideal (⟨2, ![n, k]⟩ : Shape) .f32 :=
  subf y (broadcastTo ⟨2, ![n, k]⟩
    (shapeCast ⟨2, ![n, 1]⟩ (multiReduction .maximumf [1] (⟨1, ![n]⟩ : Shape) y 0xFF800000#32 hR hφ hacc) hc) hb)

theorem shiftBody_apply (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, k]⟩)
    (r : Fin n) (c : Fin k) : shiftBody y hR hφ hacc hc hb (ix2 r c) = shifted (row y r) c := by
  unfold shiftBody
  rw [subf_apply, RowCol.broadcastTo_a1_ab_apply, RowCol.shapeCast_a_a1_apply, rowMax_body]
  rfl

/-- The logarithm of the softmax of every row, as a kernel body spells it. -/
theorem logSoftmax_body (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hacc0 : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, k]⟩) :
    subf (shiftBody y hR hφ hacc hc hb) (broadcastTo ⟨2, ![n, k]⟩
      (log (shapeCast ⟨2, ![n, 1]⟩
        (multiReduction .add [1] (⟨1, ![n]⟩ : Shape) (exp (shiftBody y hR hφ hacc hc hb)) 0x00000000#32 hR hφ hacc0) hc)) hb)
      = rowMap logSoftmax y := by
  refine eq_rowMap _ _ _ fun r c => ?_
  rw [subf_apply, shiftBody_apply, RowCol.broadcastTo_a1_ab_apply, log_apply, RowCol.shapeCast_a_a1_apply, rowSum_body]
  show _ = shifted (row y r) c - Ideal.log (∑ l : Fin k, Ideal.exp (shifted (row y r) l))
  refine congrArg (fun s => shifted (row y r) c - Ideal.log s) (Finset.sum_congr rfl fun l _ => ?_)
  rw [exp_apply, shiftBody_apply]

/-- The whole last-layer body: bias added to the loaded block, then the logarithm of the softmax. -/
theorem lsm_body (x : FVec Ideal (⟨2, ![n, k]⟩ : Shape) .f32) (b : FVec Ideal (⟨2, ![1, k]⟩ : Shape) .f32)
    (h1 : (⟨2, ![n, k]⟩ : Shape).ShapeCasts ⟨2, ![n, k]⟩) (h2 : (⟨2, ![1, k]⟩ : Shape).ShapeCasts ⟨2, ![1, k]⟩)
    (hbb : (⟨2, ![1, k]⟩ : Shape).Broadcasts ⟨2, ![n, k]⟩)
    (hR : (⟨2, ![n, k]⟩ : Shape).Reduces [1] (⟨1, ![n]⟩ : Shape)) (hφ : FKind.Formats .f32)
    (hacc : (0xFF800000#32 : BitVec 32) = FKind.maximumf.neutral .f32 hφ)
    (hacc0 : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, k]⟩) :
    subf (shiftBody (addf (shapeCast ⟨2, ![n, k]⟩ x h1) (broadcastTo ⟨2, ![n, k]⟩ (shapeCast ⟨2, ![1, k]⟩ b h2) hbb)) hR hφ hacc hc hb)
      (broadcastTo ⟨2, ![n, k]⟩ (log (shapeCast ⟨2, ![n, 1]⟩ (multiReduction .add [1] (⟨1, ![n]⟩ : Shape)
        (exp (shiftBody (addf (shapeCast ⟨2, ![n, k]⟩ x h1) (broadcastTo ⟨2, ![n, k]⟩ (shapeCast ⟨2, ![1, k]⟩ b h2) hbb)) hR hφ hacc hc hb))
        0x00000000#32 hR hφ hacc0) hc)) hb)
      = lsm x b := by
  rw [logSoftmax_body, shapeCast_self, shapeCast_self]
  refine eq_rowMap _ _ _ fun r c => ?_
  rw [rowMap_ix2]
  refine congrFun (congrArg logSoftmax (funext fun l => ?_)) c
  show addf x (broadcastTo ⟨2, ![n, k]⟩ b hbb) (ix2 r l) = x (ix2 r l) + b (ix2 (0 : Fin 1) l)
  rw [addf_apply, broadcastTo_1b_ab_apply]

/-- The row shifted by its maximum, as the host spells it: the reduced maximum once more against minus infinity, then
    put back beside the rows by two broadcasts. -/
def shiftHost (y : FVec Ideal (⟨2, ![n, k]⟩ : Shape) .f32)
    (hR' : (⟨2, ![n, k]⟩ : Shape).ReducesTo [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    FVec Ideal (⟨2, ![n, k]⟩ : Shape) .f32 :=
  subf y (broadcastInDim (⟨2, ![n, k]⟩ : Shape) (![0, 1] : Fin 2 → Fin 2) hrow
    (broadcastInDim (⟨2, ![n, 1]⟩ : Shape) (![0] : Fin 1 → Fin 2) hcol
      (maximumf (broadcastInDim (⟨1, ![n]⟩ : Shape) (![] : Fin 0 → Fin 1) h0 (constant (F := Ideal) (⟨0, ![]⟩ : Shape) .f32 0xFF800000#32))
        (Host.reduce FloatOps.maximumf y (constant (F := Ideal) (⟨0, ![]⟩ : Shape) .f32 0xFF800000#32) hR' hu))))

/-- A vector put beside the rows by the host's two broadcasts, read at coordinates. -/
theorem col_host_apply (v : FVec Ideal (⟨1, ![n]⟩ : Shape) .f32)
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2))
    (r : Fin n) (c : Fin k) :
    broadcastInDim (⟨2, ![n, k]⟩ : Shape) (![0, 1] : Fin 2 → Fin 2) hrow
      (broadcastInDim (⟨2, ![n, 1]⟩ : Shape) (![0] : Fin 1 → Fin 2) hcol v) (ix2 r c) = v (ix1 r) := by
  have hr := r.isLt
  rw [broadcastInDim_apply _ hrow _ (ix2 r c) (ix2 r (0 : Fin 1)) (fun a => match a with
      | ⟨0, _⟩ => by show r.val = if n = 1 then 0 else r.val; split <;> omega
      | ⟨1, _⟩ => by show (0 : ℕ) = if (1 : ℕ) = 1 then 0 else c.val; rw [if_pos rfl]),
    broadcastInDim_apply _ hcol v (ix2 r (0 : Fin 1)) (ix1 r) (fun a => match a with
      | ⟨0, _⟩ => by show r.val = if n = 1 then 0 else r.val; split <;> omega)]

theorem shiftHost_apply (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2))
    (r : Fin n) (c : Fin k) : shiftHost y hR' hu h0 hcol hrow (ix2 r c) = shifted (row y r) c := by
  unfold shiftHost
  rw [subf_apply, col_host_apply, maximumf_apply,
    broadcastInDim_apply _ h0 _ (ix1 r) ix0 (fun a => a.elim0), constant_apply, rowMax_host y hR' hR hu r]
  show y (ix2 r c) - max negInfF (rowMax (row y r)) = _
  rw [max_negInfF]
  rfl

/-- The logarithm of the softmax of every row, as the host spells it. -/
theorem logSoftmax_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    subf (shiftHost y hR' hu h0 hcol hrow)
      (broadcastInDim (⟨2, ![n, k]⟩ : Shape) (![0, 1] : Fin 2 → Fin 2) hrow
        (Host.log (broadcastInDim (⟨2, ![n, 1]⟩ : Shape) (![0] : Fin 1 → Fin 2) hcol
          (Host.reduceAdd (Host.exp (shiftHost y hR' hu h0 hcol hrow))
            (constant (F := Ideal) (⟨0, ![]⟩ : Shape) .f32 0x00000000#32) hR' hu))))
      = rowMap logSoftmax y := by
  have hr1 : ∀ r : Fin n, (if n = 1 then 0 else r.val) = r.val := fun r => by have := r.isLt; split <;> omega
  refine eq_rowMap _ _ _ fun r c => ?_
  rw [subf_apply, shiftHost_apply y hR' hR hu h0 hcol hrow r c,
    broadcastInDim_apply _ hrow _ (ix2 r c) (ix2 r (0 : Fin 1)) (fun a => match a with
      | ⟨0, _⟩ => (hr1 r).symm
      | ⟨1, _⟩ => by show (0 : ℕ) = if (1 : ℕ) = 1 then 0 else c.val; rw [if_pos rfl]), hostLog_apply,
    broadcastInDim_apply _ hcol _ (ix2 r (0 : Fin 1)) (ix1 r) (fun a => match a with
      | ⟨0, _⟩ => (hr1 r).symm), rowSum_host _ hR' hR hu r]
  show _ = shifted (row y r) c - Ideal.log (∑ l : Fin k, Ideal.exp (shifted (row y r) l))
  refine congrArg (fun s => shifted (row y r) c - Ideal.log s) (Finset.sum_congr rfl fun l _ => ?_)
  rw [hostExp_apply, shiftHost_apply y hR' hR hu h0 hcol hrow r l]

/-- The host's last layer: bias broadcast in two steps and added, then the logarithm of the softmax. -/
theorem lsm_host (a : FVec Ideal (⟨2, ![n, k]⟩ : Shape) .f32) (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (hsc : (⟨1, ![k]⟩ : Shape).ShapeCasts ⟨2, ![1, k]⟩) :
    rowMap logSoftmax (addf a (broadcastInDim (⟨2, ![n, k]⟩ : Shape) (![0, 1] : Fin 2 → Fin 2) h2
        (broadcastInDim (⟨2, ![1, k]⟩ : Shape) (![1] : Fin 1 → Fin 2) h1 b)))
      = lsm a (shapeCast ⟨2, ![1, k]⟩ b hsc) := by
  refine eq_rowMap _ _ _ fun r c => ?_
  rw [rowMap_ix2]
  refine congrFun (congrArg logSoftmax (funext fun l => ?_)) c
  show addf a _ (ix2 r l) = a (ix2 r l) + shapeCast ⟨2, ![1, k]⟩ b hsc (ix2 (0 : Fin 1) l)
  rw [addf_apply, bias_host_apply b h1 h2 hsc r l]

end GcnOps

end
-- ==== Proof.Spec.lean ====
/-
  The dense layers of a residual graph-convolution network, on every row of an array of extended reals.

  After a layer's aggregation has produced an N × k array "A", the layer multiplies every row by a k × q matrix "W",
  adds a one-row array "b", and takes the maximum with zero:

      dense A W b     (r, c)  =  max (Σ_l A (r, l) * W (l, c) + b (0, c), 0);

  a residual layer then adds the previous layer's array entry by entry,

      denseRes A W b R (r, c)  =  dense A W b (r, c) + R (r, c);

  and the last step is the same product and bias with no maximum,

      affine A W b    (r, c)  =  Σ_l A (r, l) * W (l, c) + b (0, c).

  Each of the three depends, in row r, on row r of its array operands only.  So a band of rows of the result is the result
  of the band ("dense_band", "denseRes_band", "affine_band"): a computation carried out on ten bands of 5000 rows is the
  computation on all 50000 rows.  The remaining lemmas say that the chains of vector operations the two programs spell
  ARE these layers: a matrix unit's product onto the zero accumulator or a host dot_general for the product, a loaded
  one-row block broadcast over the rows or a vector broadcast in two steps for the bias.  Nothing here uses finiteness:
  both sides are the same sums of the same products, so every statement holds for all extended reals.
-/
import Idealize.ShloMosaic.Lib.ValueIdx
import Idealize.ShloMosaic.Lib.ValueLayout
import Idealize.ShloMosaic.PureOps.Ideal.Laws
import proofs.«167338_j15195594293931_1_alg».proof.Proof.LibRowWise
import proofs.«167338_j15195594293931_1_alg».proof.Proof.LibMatProd
import proofs.«167338_j15195594293931_1_alg».proof.Proof.LibDot2
import proofs.«167338_j15195594293931_1_alg».proof.Proof.LibMlp
import proofs.«167338_j15195594293931_1_alg».proof.Proof.LibRowOps

noncomputable section

open scoped BigOperators

namespace ResGcn

open Idealize.ShloMosaic Idealize.ShloMosaic.ValueIdx GcnSpec

/-! ## The layers, row by row -/

/-- One row through product, bias and the maximum with zero. -/
def actRow {k q : ℕ} (W : Arr k q) (b : Arr 1 q) (z : Fin k → EReal) : Fin q → EReal := Mlp.hidden b (linRow W z)

/-- One row through product and bias. -/
def affRow {k q : ℕ} (W : Arr k q) (b : Arr 1 q) (z : Fin k → EReal) : Fin q → EReal := Mlp.shift b (linRow W z)

/-- max (A · W + b, 0) on every row. -/
def dense {n k q : ℕ} (A : Arr n k) (W : Arr k q) (b : Arr 1 q) : Arr n q := rowMap (actRow W b) A

/-- max (A · W + b, 0) + R on every row. -/
def denseRes {n k q : ℕ} (A : Arr n k) (W : Arr k q) (b : Arr 1 q) (R : Arr n q) : Arr n q :=
  fun i => dense A W b i + R i

/-- A · W + b on every row. -/
def affine {n k q : ℕ} (A : Arr n k) (W : Arr k q) (b : Arr 1 q) : Arr n q := rowMap (affRow W b) A

/-! ## A band of rows of a layer is the layer of the band

  "e₁" and "e₂" send an index of the band to the index of the whole array "o" rows further down, in the same column. -/

theorem dense_band {N n k q : ℕ} (A : Arr N k) (W : Arr k q) (b : Arr 1 q) (o : ℕ)
    (e₁ : (⟨2, ![n, k]⟩ : Shape).Idx → (⟨2, ![N, k]⟩ : Shape).Idx)
    (e₂ : (⟨2, ![n, q]⟩ : Shape).Idx → (⟨2, ![N, q]⟩ : Shape).Idx)
    (h10 : ∀ j, (e₁ j 0).val = o + (j 0).val) (h11 : ∀ j, (e₁ j 1).val = (j 1).val)
    (h20 : ∀ j, (e₂ j 0).val = o + (j 0).val) (h21 : ∀ j, (e₂ j 1).val = (j 1).val)
    (j : (⟨2, ![n, q]⟩ : Shape).Idx) :
    dense (fun y => A (e₁ y)) W b j = dense A W b (e₂ j) :=
  (rowMap_band (actRow W b) A o e₁ e₂ h10 h11 h20 h21 j).symm

theorem denseRes_band {N n k q : ℕ} (A : Arr N k) (W : Arr k q) (b : Arr 1 q) (R : Arr N q) (o : ℕ)
    (e₁ : (⟨2, ![n, k]⟩ : Shape).Idx → (⟨2, ![N, k]⟩ : Shape).Idx)
    (e₂ : (⟨2, ![n, q]⟩ : Shape).Idx → (⟨2, ![N, q]⟩ : Shape).Idx)
    (h10 : ∀ j, (e₁ j 0).val = o + (j 0).val) (h11 : ∀ j, (e₁ j 1).val = (j 1).val)
    (h20 : ∀ j, (e₂ j 0).val = o + (j 0).val) (h21 : ∀ j, (e₂ j 1).val = (j 1).val)
    (j : (⟨2, ![n, q]⟩ : Shape).Idx) :
    denseRes (fun y => A (e₁ y)) W b (fun y => R (e₂ y)) j = denseRes A W b R (e₂ j) := by
  unfold denseRes
  rw [dense_band A W b o e₁ e₂ h10 h11 h20 h21 j]

theorem affine_band {N n k q : ℕ} (A : Arr N k) (W : Arr k q) (b : Arr 1 q) (o : ℕ)
    (e₁ : (⟨2, ![n, k]⟩ : Shape).Idx → (⟨2, ![N, k]⟩ : Shape).Idx)
    (e₂ : (⟨2, ![n, q]⟩ : Shape).Idx → (⟨2, ![N, q]⟩ : Shape).Idx)
    (h10 : ∀ j, (e₁ j 0).val = o + (j 0).val) (h11 : ∀ j, (e₁ j 1).val = (j 1).val)
    (h20 : ∀ j, (e₂ j 0).val = o + (j 0).val) (h21 : ∀ j, (e₂ j 1).val = (j 1).val)
    (j : (⟨2, ![n, q]⟩ : Shape).Idx) :
    affine (fun y => A (e₁ y)) W b j = affine A W b (e₂ j) :=
  (rowMap_band (affRow W b) A o e₁ e₂ h10 h11 h20 h21 j).symm

/-! ## A kernel body's chains

  The product is a matrix unit's, onto the zero accumulator, with the dimension numbers of the plain product; the bias is
  a one-row block broadcast over the rows; the zero of the maximum is a splat scalar. -/

section Body

variable {n k q : ℕ} {φ₁ φ₂ : FTy}
  (dd : DotDims (⟨2, ![n, k]⟩ : Shape) (⟨2, ![k, q]⟩ : Shape) (⟨2, ![n, q]⟩ : Shape)) (prec : Option ContractPrecision)
  (h1 : dd.lhsContracting = [1]) (h2 : dd.rhsContracting = [0]) (h3 : dd.lhsNonContracting = [0])
  (h4 : dd.rhsNonContracting = [1]) (h5 : dd.lhsBatch = []) (h6 : dd.rhsBatch = [])
  (x : FVec Ideal (⟨2, ![n, k]⟩ : Shape) φ₁) (w : FVec Ideal (⟨2, ![k, q]⟩ : Shape) φ₂)
  (b : FVec Ideal (⟨2, ![1, q]⟩ : Shape) .f32) (hb : (⟨2, ![1, q]⟩ : Shape).Broadcasts ⟨2, ![n, q]⟩)

include h1 h2 h3 h4 h5 h6

theorem body_dense (zero : Ideal .f32) (hz : (zero : EReal) = 0) :
    maximumf (addf (matmul dd prec x w (constant (F := Ideal) (⟨2, ![n, q]⟩ : Shape) .f32 0x00000000#32))
        (broadcastTo ⟨2, ![n, q]⟩ b hb)) (broadcast ⟨2, ![n, q]⟩ zero) = dense x w b := by
  rw [Mlp.matmul_zero_lin dd prec h1 h2 h3 h4 h5 h6, Mlp.hidden_chain _ b hb zero hz]
  rfl

theorem body_denseRes (zero : Ideal .f32) (hz : (zero : EReal) = 0) (r : FVec Ideal (⟨2, ![n, q]⟩ : Shape) .f32) :
    addf (maximumf (addf (matmul dd prec x w (constant (F := Ideal) (⟨2, ![n, q]⟩ : Shape) .f32 0x00000000#32))
        (broadcastTo ⟨2, ![n, q]⟩ b hb)) (broadcast ⟨2, ![n, q]⟩ zero)) r = denseRes x w b r := by
  rw [body_dense dd prec h1 h2 h3 h4 h5 h6 x w b hb zero hz]
  rfl

theorem body_affine :
    addf (matmul dd prec x w (constant (F := Ideal) (⟨2, ![n, q]⟩ : Shape) .f32 0x00000000#32))
        (broadcastTo ⟨2, ![n, q]⟩ b hb) = affine x w b := by
  rw [Mlp.matmul_zero_lin dd prec h1 h2 h3 h4 h5 h6, Mlp.shift_chain _ b hb]
  rfl

end Body

/-! ## The host's chains

  The product is a dot_general with the same dimension numbers; the bias is a vector made a one-row array and then
  broadcast over the rows; the zero of the maximum is a rank-0 constant broadcast. -/

/-- The two layers of rows agree whether the zero is spelt as the float word or as the number. -/
theorem relu_eq_hidden {m p : ℕ} (a : Arr m p) (c : Arr 1 p) : relu a c = rowMap (Mlp.hidden c) a := by
  unfold relu
  refine congrArg (fun f => rowMap f a) (funext fun z => funext fun j => ?_)
  unfold reluRow Mlp.hidden
  rw [zeroF_eq]

section Host

variable {n k q : ℕ}
  (dd : DotDims (⟨2, ![n, k]⟩ : Shape) (⟨2, ![k, q]⟩ : Shape) (⟨2, ![n, q]⟩ : Shape)) (prec : Option ContractPrecision)
  (h1 : dd.lhsContracting = [1]) (h2 : dd.rhsContracting = [0]) (h3 : dd.lhsNonContracting = [0])
  (h4 : dd.rhsNonContracting = [1]) (h5 : dd.lhsBatch = []) (h6 : dd.rhsBatch = [])
  (A : FVec Ideal (⟨2, ![n, k]⟩ : Shape) .f32) (W : FVec Ideal (⟨2, ![k, q]⟩ : Shape) .f32)
  (b : FVec Ideal (⟨1, ![q]⟩ : Shape) .f32)
  (hb1 : (⟨1, ![q]⟩ : Shape).BroadcastsInDim (⟨2, ![1, q]⟩ : Shape) (![1] : Fin 1 → Fin 2))
  (hb2 : (⟨2, ![1, q]⟩ : Shape).BroadcastsInDim (⟨2, ![n, q]⟩ : Shape) (![0, 1] : Fin 2 → Fin 2))
  (hsc : (⟨1, ![q]⟩ : Shape).ShapeCasts ⟨2, ![1, q]⟩)

include h1 h2 h3 h4 h5 h6

/-- The host's dot_general is every row of the left operand times the right one. -/
theorem host_lin : Host.dotGeneral dd prec A W = rowMap (linRow W) A := by
  have hr : dd.contr.rank = 1 := Dot2.rank_contr dd h1
  have h0 : 0 < dd.contr.rank := by omega
  simp only [Host.dotGeneral]
  exact GcnOps.dotGeneral_eq_lin dd prec _ hr (Dot2.size_contr dd h1 h0) (Dot2.lhs0 dd h3 h5) (Dot2.lhs1 dd h1 h0)
    (Dot2.rhs0 dd h2 h0) (Dot2.rhs1 dd h3 h4 h5 h6) A W

theorem host_dense
    (h0 : (⟨0, ![]⟩ : Shape).BroadcastsInDim (⟨2, ![n, q]⟩ : Shape) (![] : Fin 0 → Fin 2)) :
    maximumf (addf (Host.dotGeneral dd prec A W)
        (broadcastInDim (⟨2, ![n, q]⟩ : Shape) (![0, 1] : Fin 2 → Fin 2) hb2
          (broadcastInDim (⟨2, ![1, q]⟩ : Shape) (![1] : Fin 1 → Fin 2) hb1 b)))
      (broadcastInDim (⟨2, ![n, q]⟩ : Shape) (![] : Fin 0 → Fin 2) h0
        (constant (F := Ideal) (⟨0, ![]⟩ : Shape) .f32 0x00000000#32))
      = dense A W (shapeCast ⟨2, ![1, q]⟩ b hsc) := by
  rw [GcnOps.relu_host _ b hb1 hb2 h0 hsc, host_lin dd prec h1 h2 h3 h4 h5 h6 A W, relu_eq_hidden]
  rfl

theorem host_affine :
    addf (Host.dotGeneral dd prec A W)
        (broadcastInDim (⟨2, ![n, q]⟩ : Shape) (![0, 1] : Fin 2 → Fin 2) hb2
          (broadcastInDim (⟨2, ![1, q]⟩ : Shape) (![1] : Fin 1 → Fin 2) hb1 b))
      = affine A W (shapeCast ⟨2, ![1, q]⟩ b hsc) := by
  rw [host_lin dd prec h1 h2 h3 h4 h5 h6 A W]
  refine eq_rowMap _ _ _ fun r c => ?_
  rw [addf_apply, GcnOps.bias_host_apply b hb1 hb2 hsc r c]
  rfl

end Host

end ResGcn

end
-- ==== Proof.Blocks0.lean ====
/-
  Region 0 (the input layer), from bands to the whole array.

  The region's grid has ten points.  Point t loads rows 5000 t … 5000 t + 4999 of the aggregated array, the whole
  128 × 128 matrix and the whole one-row bias, and writes max (band · W + b, 0) to the same rows of the result array.
  Row r of that value depends on row r of the band only, so what point t writes is band t of the one array
  "dense A W b" of all 50000 rows.  The ten bands are disjoint and cover the result array, so after the run the
  result array IS "dense A W b", with A, W, b the arrays as the region found them.
-/
import proofs.«167338_j15195594293931_1_alg».proof.Proof.Gen.KernelIdeal.Frame
import proofs.«167338_j15195594293931_1_alg».proof.Proof.Spec
import Idealize.ShloMosaic.Lib.Pipeline.Value
import Idealize.ShloMosaic.Lib.ValueIdx

set_option maxRecDepth 16384

noncomputable section

namespace Cert.KernelIdeal.Blocks0

open Cert.KernelIdeal Cert.KernelIdeal.Gen
open Idealize.ShloMosaic Idealize.ShloMosaic.TcCoe Idealize.SL.Sem Idealize.ShloMosaic.ValueIdx
open Idealize.ShloMosaic.Pipeline (Dat)

-- the region's buffer contents at entry: any
variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its loaded blocks is the layer on the band. -/
theorem pay (x0 : Vec Ideal S5000x128 .f32) (x1 : Vec Ideal S128x128 .f32) (x2 : Vec Ideal S1x128 .f32) :
    k0_pay1 x0 x1 x2 = ResGcn.dense x0 x1 x2 := by
  unfold k0_pay1
  simp only [shapeCast_self]
  exact ResGcn.body_dense dot_S5000x128_S128x128_S5000x128_1_0_0_1_n_n none rfl rfl rfl rfl rfl rfl _ _ x2 broadcasts_S1x128_S5000x128 (Scalar.ofBits (F := Ideal) .f32 0x00000000#32) Ideal.ofBits_zero_f32

/-- A band of 5000 rows, "o" rows down, read through index maps: the matrix and the bias row are read whole. -/
theorem band (A : GcnSpec.Arr 50000 128) (W : GcnSpec.Arr 128 128) (B : GcnSpec.Arr 1 128) (o : ℕ)
    (e0 : S5000x128.Idx → S50000x128.Idx) (e1 : S128x128.Idx → S128x128.Idx) (e2 : S1x128.Idx → S1x128.Idx)
    (e4 : S5000x128.Idx → S50000x128.Idx)
    (h00 : ∀ y, (e0 y 0).val = o + (y 0).val) (h01 : ∀ y, (e0 y 1).val = (y 1).val)
    (h1 : ∀ y, e1 y = y) (h2 : ∀ y, e2 y = y)
    (h40 : ∀ y, (e4 y 0).val = o + (y 0).val) (h41 : ∀ y, (e4 y 1).val = (y 1).val) (j : S5000x128.Idx) :
    ResGcn.dense (fun y => A (e0 y)) (fun y => W (e1 y)) (fun y => B (e2 y)) j
      = ResGcn.dense A W B (e4 j) := by
  have hW : (fun y => W (e1 y)) = W := funext fun y => congrArg W (h1 y)
  have hB : (fun y => B (e2 y)) = B := funext fun y => congrArg B (h2 y)
  rw [hW, hB]
  exact ResGcn.dense_band A W B o e0 e4 h00 h01 h40 h41 j

/-- The index maps, decided over the ten points: the row-band windows move together, the other windows stay. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) ≤ 9 :=
  (by decide +kernel : ∀ t : Fin grid0.N, _)

/-- Every band is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- What point t writes back is band t of the layer of the whole arrays as the region finds them. -/
theorem flushed_eq (c : Dev nD) (t : Fin cfg0.N) :
    (dat0 V c).flushed 3 t = ((cfg0.win 3).blk t).view.read (Elt Ideal) (ResGcn.dense (V c main_v13) (V c main_arg4) (V c main_v0)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  rw [pay]
  obtain ⟨e0, e1, e2, e3, e4, e5, e6, e7⟩ := idx_facts t
  funext j
  show ResGcn.dense (fun y => V c main_v13 (((cfg0.win 0).blk t).view.emb y)) (fun y => V c main_arg4 (((cfg0.win 1).blk t).view.emb y)) (fun y => V c main_v0 (((cfg0.win 2).blk t).view.emb y)) j
    = ResGcn.dense (V c main_v13) (V c main_arg4) (V c main_v0) (((cfg0.win 3).blk t).view.emb j)
  refine band (V c main_v13) (V c main_arg4) (V c main_v0) (win0_3.index t (0 : Fin 2) * 5000)
    (((cfg0.win 0).blk t).view.emb) (((cfg0.win 1).blk t).view.emb) (((cfg0.win 2).blk t).view.emb) (((cfg0.win 3).blk t).view.emb) ?_ ?_ ?_ ?_ ?_ ?_ j
  · intro y; show win0_0.index t (0 : Fin 2) * 5000 + 1 * (y 0).val = win0_3.index t (0 : Fin 2) * 5000 + (y 0).val; omega
  · intro y; show win0_0.index t (1 : Fin 2) * 128 + 1 * (y 1).val = (y 1).val; omega
  · exact (fun y => funext fun a => Fin.ext (by
      match a with
      | ⟨0, _⟩ => show win0_1.index t (0 : Fin 2) * 128 + 1 * (y 0).val = (y 0).val; omega
      | ⟨1, _⟩ => show win0_1.index t (1 : Fin 2) * 128 + 1 * (y 1).val = (y 1).val; omega))
  · exact (fun y => funext fun a => Fin.ext (by
      match a with
      | ⟨0, _⟩ => show win0_2.index t (0 : Fin 2) * 1 + 1 * (y 0).val = (y 0).val; omega
      | ⟨1, _⟩ => show win0_2.index t (1 : Fin 2) * 128 + 1 * (y 1).val = (y 1).val; omega))
  · intro y; show win0_3.index t (0 : Fin 2) * 5000 + 1 * (y 0).val = win0_3.index t (0 : Fin 2) * 5000 + (y 0).val; omega
  · intro y; show win0_3.index t (1 : Fin 2) * 128 + 1 * (y 1).val = (y 1).val; omega

/-- An index of the array is in point t's band iff each coordinate is in the band's range. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v14).slice (win0_3.rect t)).set ↔ _
  rw [View.set_slice_whole, Rect.mem_set_unit]
  exact Iff.rfl

/-- The ten bands cover the array: row r is in band r / 5000. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The region's result array after its run is the layer of the arrays the region found. -/
theorem final (c : Dev nD) :
    (dat0 V c).arrAt 3 cfg0.N = ResGcn.dense (V c main_v13) (V c main_arg4) (V c main_v0) :=
  (dat0 V c).arrAt_eq_of_cover 3 (ResGcn.dense (V c main_v13) (V c main_arg4) (V c main_v0)) (fun t _ => flushed_eq V c t) (cover)

end Cert.KernelIdeal.Blocks0

end
-- ==== Proof.Blocks1.lean ====
/-
  Region 1 (the first residual layer), from bands to the whole array.

  The region's grid has ten points.  Point t loads rows 5000 t … 5000 t + 4999 of the aggregated array and of the
  previous layer's array, the whole 128 × 128 matrix and the whole one-row bias, and writes
  max (band · W + b, 0) + (the previous layer's band) to the same rows of the result array.  Row r of that value depends
  on row r of the two bands only, so what point t writes is band t of the one array "denseRes A W b R" of all 50000
  rows.  The ten bands are disjoint and cover the result array, so after the run the result array IS
  "denseRes A W b R", with A, W, b, R the arrays as the region found them.
-/
import proofs.«167338_j15195594293931_1_alg».proof.Proof.Gen.KernelIdeal.Frame
import proofs.«167338_j15195594293931_1_alg».proof.Proof.Spec
import Idealize.ShloMosaic.Lib.Pipeline.Value
import Idealize.ShloMosaic.Lib.ValueIdx

set_option maxRecDepth 16384

noncomputable section

namespace Cert.KernelIdeal.Blocks1

open Cert.KernelIdeal Cert.KernelIdeal.Gen
open Idealize.ShloMosaic Idealize.ShloMosaic.TcCoe Idealize.SL.Sem Idealize.ShloMosaic.ValueIdx
open Idealize.ShloMosaic.Pipeline (Dat)

-- the region's buffer contents at entry: any
variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its loaded blocks is the layer on the band. -/
theorem pay (x0 : Vec Ideal S5000x128 .f32) (x1 : Vec Ideal S128x128 .f32) (x2 : Vec Ideal S1x128 .f32)
    (x3 : Vec Ideal S5000x128 .f32) :
    k1_pay1 x0 x1 x2 x3 = ResGcn.denseRes x0 x1 x2 x3 := by
  unfold k1_pay1
  simp only [shapeCast_self]
  exact ResGcn.body_denseRes dot_S5000x128_S128x128_S5000x128_1_0_0_1_n_n none rfl rfl rfl rfl rfl rfl _ _ x2 broadcasts_S1x128_S5000x128 (Scalar.ofBits (F := Ideal) .f32 0x00000000#32) Ideal.ofBits_zero_f32 x3

/-- A band of 5000 rows, "o" rows down, read through index maps: the matrix and the bias row are read whole, and the
    previous layer's band is read through the result's own map. -/
theorem band (A : GcnSpec.Arr 50000 128) (W : GcnSpec.Arr 128 128) (B : GcnSpec.Arr 1 128) (R : GcnSpec.Arr 50000 128) (o : ℕ)
    (e0 : S5000x128.Idx → S50000x128.Idx) (e1 : S128x128.Idx → S128x128.Idx) (e2 : S1x128.Idx → S1x128.Idx)
    (e3 : S5000x128.Idx → S50000x128.Idx) (e4 : S5000x128.Idx → S50000x128.Idx)
    (h00 : ∀ y, (e0 y 0).val = o + (y 0).val) (h01 : ∀ y, (e0 y 1).val = (y 1).val)
    (h1 : ∀ y, e1 y = y) (h2 : ∀ y, e2 y = y) (h3 : ∀ y, e3 y = e4 y)
    (h40 : ∀ y, (e4 y 0).val = o + (y 0).val) (h41 : ∀ y, (e4 y 1).val = (y 1).val) (j : S5000x128.Idx) :
    ResGcn.denseRes (fun y => A (e0 y)) (fun y => W (e1 y)) (fun y => B (e2 y)) (fun y => R (e3 y)) j
      = ResGcn.denseRes A W B R (e4 j) := by
  have hW : (fun y => W (e1 y)) = W := funext fun y => congrArg W (h1 y)
  have hB : (fun y => B (e2 y)) = B := funext fun y => congrArg B (h2 y)
  have hR : (fun y => R (e3 y)) = fun y => R (e4 y) := funext fun y => congrArg R (h3 y)
  rw [hW, hB, hR]
  exact ResGcn.denseRes_band A W B R o e0 e4 h00 h01 h40 h41 j

/-- The index maps, decided over the ten points: the row-band windows move together, the other windows stay. -/
theorem idx_facts : ∀ t : Fin cfg1.N, win1_0.index t (0 : Fin 2) = win1_4.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = win1_4.index t (0 : Fin 2)
    ∧ win1_3.index t (1 : Fin 2) = 0
    ∧ win1_4.index t (1 : Fin 2) = 0
    ∧ win1_4.index t (0 : Fin 2) ≤ 9 :=
  (by decide +kernel : ∀ t : Fin grid1.N, _)

/-- Every band is some point's. -/
theorem idx_onto : ∀ q0 : Fin 10, ∃ t : Fin cfg1.N, win1_4.index t = ![q0.val, 0] :=
  (by decide +kernel : ∀ q0 : Fin 10, ∃ t : Fin grid1.N, win1_4.index t = ![q0.val, 0])

/-- What point t writes back is band t of the layer of the whole arrays as the region finds them. -/
theorem flushed_eq (c : Dev nD) (t : Fin cfg1.N) :
    (dat1 V c).flushed 4 t = ((cfg1.win 4).blk t).view.read (Elt Ideal) (ResGcn.denseRes (V c main_v27) (V c main_v32) (V c main_v30) (V c main_v14)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S1x128) hz]
  rw [pay]
  obtain ⟨e0, e1, e2, e3, e4, e5, e6, e7, e8, e9⟩ := idx_facts t
  funext j
  show ResGcn.denseRes (fun y => V c main_v27 (((cfg1.win 0).blk t).view.emb y)) (fun y => V c main_v32 (((cfg1.win 1).blk t).view.emb y)) (fun y => V c main_v30 (((cfg1.win 2).blk t).view.emb y)) (fun y => V c main_v14 (((cfg1.win 3).blk t).view.emb y)) j
    = ResGcn.denseRes (V c main_v27) (V c main_v32) (V c main_v30) (V c main_v14) (((cfg1.win 4).blk t).view.emb j)
  refine band (V c main_v27) (V c main_v32) (V c main_v30) (V c main_v14) (win1_4.index t (0 : Fin 2) * 5000)
    (((cfg1.win 0).blk t).view.emb) (((cfg1.win 1).blk t).view.emb) (((cfg1.win 2).blk t).view.emb) (((cfg1.win 3).blk t).view.emb) (((cfg1.win 4).blk t).view.emb) ?_ ?_ ?_ ?_ ?_ ?_ ?_ j
  · intro y; show win1_0.index t (0 : Fin 2) * 5000 + 1 * (y 0).val = win1_4.index t (0 : Fin 2) * 5000 + (y 0).val; omega
  · intro y; show win1_0.index t (1 : Fin 2) * 128 + 1 * (y 1).val = (y 1).val; omega
  · exact (fun y => funext fun a => Fin.ext (by
      match a with
      | ⟨0, _⟩ => show win1_1.index t (0 : Fin 2) * 128 + 1 * (y 0).val = (y 0).val; omega
      | ⟨1, _⟩ => show win1_1.index t (1 : Fin 2) * 128 + 1 * (y 1).val = (y 1).val; omega))
  · exact (fun y => funext fun a => Fin.ext (by
      match a with
      | ⟨0, _⟩ => show win1_2.index t (0 : Fin 2) * 1 + 1 * (y 0).val = (y 0).val; omega
      | ⟨1, _⟩ => show win1_2.index t (1 : Fin 2) * 128 + 1 * (y 1).val = (y 1).val; omega))
  · exact (fun y => funext fun a => Fin.ext (by
      match a with
      | ⟨0, _⟩ => show win1_3.index t (0 : Fin 2) * 5000 + 1 * (y 0).val = win1_4.index t (0 : Fin 2) * 5000 + 1 * (y 0).val; omega
      | ⟨1, _⟩ => show win1_3.index t (1 : Fin 2) * 128 + 1 * (y 1).val = win1_4.index t (1 : Fin 2) * 128 + 1 * (y 1).val; omega))
  · intro y; show win1_4.index t (0 : Fin 2) * 5000 + 1 * (y 0).val = win1_4.index t (0 : Fin 2) * 5000 + (y 0).val; omega
  · intro y; show win1_4.index t (1 : Fin 2) * 128 + 1 * (y 1).val = (y 1).val; omega

/-- An index of the array is in point t's band iff each coordinate is in the band's range. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v33).slice (win1_4.rect t)).set ↔ _
  rw [View.set_slice_whole, Rect.mem_set_unit]
  exact Iff.rfl

/-- The ten bands cover the array: row r is in band r / 5000. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The region's result array after its run is the layer of the arrays the region found. -/
theorem final (c : Dev nD) :
    (dat1 V c).arrAt 4 cfg1.N = ResGcn.denseRes (V c main_v27) (V c main_v32) (V c main_v30) (V c main_v14) :=
  (dat1 V c).arrAt_eq_of_cover 4 (ResGcn.denseRes (V c main_v27) (V c main_v32) (V c main_v30) (V c main_v14)) (fun t _ => flushed_eq V c t) (cover)

end Cert.KernelIdeal.Blocks1

end
-- ==== Proof.Blocks2.lean ====
/-
  Region 2 (the second residual layer), from bands to the whole array.

  The region's grid has ten points.  Point t loads rows 5000 t … 5000 t + 4999 of the aggregated array and of the
  previous layer's array, the whole 128 × 128 matrix and the whole one-row bias, and writes
  max (band · W + b, 0) + (the previous layer's band) to the same rows of the result array.  Row r of that value depends
  on row r of the two bands only, so what point t writes is band t of the one array "denseRes A W b R" of all 50000
  rows.  The ten bands are disjoint and cover the result array, so after the run the result array IS
  "denseRes A W b R", with A, W, b, R the arrays as the region found them.
-/
import proofs.«167338_j15195594293931_1_alg».proof.Proof.Gen.KernelIdeal.Frame
import proofs.«167338_j15195594293931_1_alg».proof.Proof.Spec
import Idealize.ShloMosaic.Lib.Pipeline.Value
import Idealize.ShloMosaic.Lib.ValueIdx

set_option maxRecDepth 16384

noncomputable section

namespace Cert.KernelIdeal.Blocks2

open Cert.KernelIdeal Cert.KernelIdeal.Gen
open Idealize.ShloMosaic Idealize.ShloMosaic.TcCoe Idealize.SL.Sem Idealize.ShloMosaic.ValueIdx
open Idealize.ShloMosaic.Pipeline (Dat)

-- the region's buffer contents at entry: any
variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its loaded blocks is the layer on the band. -/
theorem pay (x0 : Vec Ideal S5000x128 .f32) (x1 : Vec Ideal S128x128 .f32) (x2 : Vec Ideal S1x128 .f32)
    (x3 : Vec Ideal S5000x128 .f32) :
    k2_pay1 x0 x1 x2 x3 = ResGcn.denseRes x0 x1 x2 x3 := by
  unfold k2_pay1
  simp only [shapeCast_self]
  exact ResGcn.body_denseRes dot_S5000x128_S128x128_S5000x128_1_0_0_1_n_n none rfl rfl rfl rfl rfl rfl _ _ x2 broadcasts_S1x128_S5000x128 (Scalar.ofBits (F := Ideal) .f32 0x00000000#32) Ideal.ofBits_zero_f32 x3

/-- A band of 5000 rows, "o" rows down, read through index maps: the matrix and the bias row are read whole, and the
    previous layer's band is read through the result's own map. -/
theorem band (A : GcnSpec.Arr 50000 128) (W : GcnSpec.Arr 128 128) (B : GcnSpec.Arr 1 128) (R : GcnSpec.Arr 50000 128) (o : ℕ)
    (e0 : S5000x128.Idx → S50000x128.Idx) (e1 : S128x128.Idx → S128x128.Idx) (e2 : S1x128.Idx → S1x128.Idx)
    (e3 : S5000x128.Idx → S50000x128.Idx) (e4 : S5000x128.Idx → S50000x128.Idx)
    (h00 : ∀ y, (e0 y 0).val = o + (y 0).val) (h01 : ∀ y, (e0 y 1).val = (y 1).val)
    (h1 : ∀ y, e1 y = y) (h2 : ∀ y, e2 y = y) (h3 : ∀ y, e3 y = e4 y)
    (h40 : ∀ y, (e4 y 0).val = o + (y 0).val) (h41 : ∀ y, (e4 y 1).val = (y 1).val) (j : S5000x128.Idx) :
    ResGcn.denseRes (fun y => A (e0 y)) (fun y => W (e1 y)) (fun y => B (e2 y)) (fun y => R (e3 y)) j
      = ResGcn.denseRes A W B R (e4 j) := by
  have hW : (fun y => W (e1 y)) = W := funext fun y => congrArg W (h1 y)
  have hB : (fun y => B (e2 y)) = B := funext fun y => congrArg B (h2 y)
  have hR : (fun y => R (e3 y)) = fun y => R (e4 y) := funext fun y => congrArg R (h3 y)
  rw [hW, hB, hR]
  exact ResGcn.denseRes_band A W B R o e0 e4 h00 h01 h40 h41 j

/-- The index maps, decided over the ten points: the row-band windows move together, the other windows stay. -/
theorem idx_facts : ∀ t : Fin cfg2.N, win2_0.index t (0 : Fin 2) = win2_4.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = win2_4.index t (0 : Fin 2)
    ∧ win2_3.index t (1 : Fin 2) = 0
    ∧ win2_4.index t (1 : Fin 2) = 0
    ∧ win2_4.index t (0 : Fin 2) ≤ 9 :=
  (by decide +kernel : ∀ t : Fin grid2.N, _)

/-- Every band is some point's. -/
theorem idx_onto : ∀ q0 : Fin 10, ∃ t : Fin cfg2.N, win2_4.index t = ![q0.val, 0] :=
  (by decide +kernel : ∀ q0 : Fin 10, ∃ t : Fin grid2.N, win2_4.index t = ![q0.val, 0])

/-- What point t writes back is band t of the layer of the whole arrays as the region finds them. -/
theorem flushed_eq (c : Dev nD) (t : Fin cfg2.N) :
    (dat2 V c).flushed 4 t = ((cfg2.win 4).blk t).view.read (Elt Ideal) (ResGcn.denseRes (V c main_v46) (V c main_v51) (V c main_v49) (V c main_v33)) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x128) hz, View.ld_unit_zero (S := S1x128) hz]
  rw [pay]
  obtain ⟨e0, e1, e2, e3, e4, e5, e6, e7, e8, e9⟩ := idx_facts t
  funext j
  show ResGcn.denseRes (fun y => V c main_v46 (((cfg2.win 0).blk t).view.emb y)) (fun y => V c main_v51 (((cfg2.win 1).blk t).view.emb y)) (fun y => V c main_v49 (((cfg2.win 2).blk t).view.emb y)) (fun y => V c main_v33 (((cfg2.win 3).blk t).view.emb y)) j
    = ResGcn.denseRes (V c main_v46) (V c main_v51) (V c main_v49) (V c main_v33) (((cfg2.win 4).blk t).view.emb j)
  refine band (V c main_v46) (V c main_v51) (V c main_v49) (V c main_v33) (win2_4.index t (0 : Fin 2) * 5000)
    (((cfg2.win 0).blk t).view.emb) (((cfg2.win 1).blk t).view.emb) (((cfg2.win 2).blk t).view.emb) (((cfg2.win 3).blk t).view.emb) (((cfg2.win 4).blk t).view.emb) ?_ ?_ ?_ ?_ ?_ ?_ ?_ j
  · intro y; show win2_0.index t (0 : Fin 2) * 5000 + 1 * (y 0).val = win2_4.index t (0 : Fin 2) * 5000 + (y 0).val; omega
  · intro y; show win2_0.index t (1 : Fin 2) * 128 + 1 * (y 1).val = (y 1).val; omega
  · exact (fun y => funext fun a => Fin.ext (by
      match a with
      | ⟨0, _⟩ => show win2_1.index t (0 : Fin 2) * 128 + 1 * (y 0).val = (y 0).val; omega
      | ⟨1, _⟩ => show win2_1.index t (1 : Fin 2) * 128 + 1 * (y 1).val = (y 1).val; omega))
  · exact (fun y => funext fun a => Fin.ext (by
      match a with
      | ⟨0, _⟩ => show win2_2.index t (0 : Fin 2) * 1 + 1 * (y 0).val = (y 0).val; omega
      | ⟨1, _⟩ => show win2_2.index t (1 : Fin 2) * 128 + 1 * (y 1).val = (y 1).val; omega))
  · exact (fun y => funext fun a => Fin.ext (by
      match a with
      | ⟨0, _⟩ => show win2_3.index t (0 : Fin 2) * 5000 + 1 * (y 0).val = win2_4.index t (0 : Fin 2) * 5000 + 1 * (y 0).val; omega
      | ⟨1, _⟩ => show win2_3.index t (1 : Fin 2) * 128 + 1 * (y 1).val = win2_4.index t (1 : Fin 2) * 128 + 1 * (y 1).val; omega))
  · intro y; show win2_4.index t (0 : Fin 2) * 5000 + 1 * (y 0).val = win2_4.index t (0 : Fin 2) * 5000 + (y 0).val; omega
  · intro y; show win2_4.index t (1 : Fin 2) * 128 + 1 * (y 1).val = (y 1).val; omega

/-- An index of the array is in point t's band iff each coordinate is in the band's range. -/
theorem mem_blk (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v52).slice (win2_4.rect t)).set ↔ _
  rw [View.set_slice_whole, Rect.mem_set_unit]
  exact Iff.rfl

/-- The ten bands cover the array: row r is in band r / 5000. -/
theorem cover (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, ht⟩ := idx_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The region's result array after its run is the layer of the arrays the region found. -/
theorem final (c : Dev nD) :
    (dat2 V c).arrAt 4 cfg2.N = ResGcn.denseRes (V c main_v46) (V c main_v51) (V c main_v49) (V c main_v33) :=
  (dat2 V c).arrAt_eq_of_cover 4 (ResGcn.denseRes (V c main_v46) (V c main_v51) (V c main_v49) (V c main_v33)) (fun t _ => flushed_eq V c t) (cover)

end Cert.KernelIdeal.Blocks2

end
-- ==== Proof.Blocks3.lean ====
/-
  Region 3 (the third residual layer), from bands to the whole array.

  The region's grid has ten points.  Point t loads rows 5000 t … 5000 t + 4999 of the aggregated array and of the
  previous layer's array, the whole 128 × 128 matrix and the whole one-row bias, and writes
  max (band · W + b, 0) + (the previous layer's band) to the same rows of the result array.  Row r of that value depends
  on row r of the two bands only, so what point t writes is band t of the one array "denseRes A W b R" of all 50000
  rows.  The ten bands are disjoint and cover the result array, so after the run the result array IS
  "denseRes A W b R", with A, W, b, R the arrays as the region found them.
-/
import proofs.«167338_j15195594293931_1_alg».proof.Proof.Gen.KernelIdeal.Frame
import proofs.«167338_j15195594293931_1_alg».proof.Proof.Spec
import Idealize.ShloMosaic.Lib.Pipeline.Value
import Idealize.ShloMosaic.Lib.ValueIdx

set_option maxRecDepth 16384

noncomputable section

namespace Cert.KernelIdeal.Blocks3

open Cert.KernelIdeal Cert.KernelIdeal.Gen
open Idealize.ShloMosaic Idealize.ShloMosaic.TcCoe Idealize.SL.Sem Idealize.ShloMosaic.ValueIdx
open Idealize.ShloMosaic.Pipeline (Dat)

-- the region's buffer contents at entry: any
variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its loaded blocks is the layer on the band. -/
theorem pay (x0 : Vec Ideal S5000x128 .f32) (x1 : Vec Ideal S128x128 .f32) (x2 : Vec Ideal S1x128 .f32)
    (x3 : Vec Ideal S5000x128 .f32) :
    k3_pay1 x0 x1 x2 x3 = ResGcn.denseRes x0 x1 x2 x3 := by
  unfold k3_pay1
  simp only [shapeCast_self]
  exact ResGcn.body_denseRes dot_S5000x128_S128x128_S5000x128_1_0_0_1_n_n none rfl rfl rfl rfl rfl rfl _ _ x2 broadcasts_S1x128_S5000x128 (Scalar.ofBits (F := Ideal) .f32 0x00000000#32) Ideal.ofBits_zero_f32 x3

/-- A band of 5000 rows, "o" rows down, read through index maps: the matrix and the bias row are read whole, and the
    previous layer's band is read through the result's own map. -/
theorem band (A : GcnSpec.Arr 50000 128) (W : GcnSpec.Arr 128 128) (B : GcnSpec.Arr 1 128) (R : GcnSpec.Arr 50000 128) (o : ℕ)
    (e0 : S5000x128.Idx → S50000x128.Idx) (e1 : S128x128.Idx → S128x128.Idx) (e2 : S1x128.Idx → S1x128.Idx)
    (e3 : S5000x128.Idx → S50000x128.Idx) (e4 : S5000x128.Idx → S50000x128.Idx)
    (h00 : ∀ y, (e0 y 0).val = o + (y 0).val) (h01 : ∀ y, (e0 y 1).val = (y 1).val)
    (h1 : ∀ y, e1 y = y) (h2 : ∀ y, e2 y = y) (h3 : ∀ y, e3 y = e4 y)
    (h40 : ∀ y, (e4 y 0).val = o + (y 0).val) (h41 : ∀ y, (e4 y 1).val = (y 1).val) (j : S5000x128.Idx) :
    ResGcn.denseRes (fun y => A (e0 y)) (fun y => W (e1 y)) (fun y => B (e2 y)) (fun y => R (e3 y)) j
      = ResGcn.denseRes A W B R (e4 j) := by
  have hW : (fun y => W (e1 y)) = W := funext fun y => congrArg W (h1 y)
  have hB : (fun y => B (e2 y)) = B := funext fun y => congrArg B (h2 y)
  have hR : (fun y => R (e3 y)) = fun y => R (e4 y) := funext fun y => congrArg R (h3 y)
  rw [hW, hB, hR]
  exact ResGcn.denseRes_band A W B R o e0 e4 h00 h01 h40 h41 j

/-- The index maps, decided over the ten points: the row-band windows move together, the other windows stay. -/
theorem idx_facts : ∀ t : Fin cfg3.N, win3_0.index t (0 : Fin 2) = win3_4.index t (0 : Fin 2)
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = win3_4.index t (0 : Fin 2)
    ∧ win3_3.index t (1 : Fin 2) = 0
    ∧ win3_4.index t (1 : Fin 2) = 0
    ∧ win3_4.index t (0 : Fin 2) ≤ 9 :=
  (by decide +kernel : ∀ t : Fin grid3.N, _)

/-- Every band is some point's. -/
theorem idx_onto : ∀ q0 : Fin 10, ∃ t : Fin cfg3.N, win3_4.index t = ![q0.val, 0] :=
  (by decide +kernel : ∀ q0 : Fin 10, ∃ t : Fin grid3.N, win3_4.index t = ![q0.val, 0])

/-- What point t writes back is band t of the layer of the whole arrays as the region finds them. -/
theorem flushed_eq (c : Dev nD) (t : Fin cfg3.N) :
    (dat3 V c).flushed 4 t = ((cfg3.win 4).blk t).view.read (Elt Ideal) (ResGcn.denseRes (V c main_v65) (V c main_v70) (V c main_v68) (V c main_v52)) := by
  show (cfg3.win 4).cut (grid3.coords t) ((dat3 V c).after 4 t) = _
  rw [after3_4]
  unfold out3_4
  rw [View.canon_unit_zero hz]
  simp only [View.ld_unit_zero (S := S5000x128) hz, View.ld_unit_zero (S := S128x128) hz, View.ld_unit_zero (S := S1x128) hz]
  rw [pay]
  obtain ⟨e0, e1, e2, e3, e4, e5, e6, e7, e8, e9⟩ := idx_facts t
  funext j
  show ResGcn.denseRes (fun y => V c main_v65 (((cfg3.win 0).blk t).view.emb y)) (fun y => V c main_v70 (((cfg3.win 1).blk t).view.emb y)) (fun y => V c main_v68 (((cfg3.win 2).blk t).view.emb y)) (fun y => V c main_v52 (((cfg3.win 3).blk t).view.emb y)) j
    = ResGcn.denseRes (V c main_v65) (V c main_v70) (V c main_v68) (V c main_v52) (((cfg3.win 4).blk t).view.emb j)
  refine band (V c main_v65) (V c main_v70) (V c main_v68) (V c main_v52) (win3_4.index t (0 : Fin 2) * 5000)
    (((cfg3.win 0).blk t).view.emb) (((cfg3.win 1).blk t).view.emb) (((cfg3.win 2).blk t).view.emb) (((cfg3.win 3).blk t).view.emb) (((cfg3.win 4).blk t).view.emb) ?_ ?_ ?_ ?_ ?_ ?_ ?_ j
  · intro y; show win3_0.index t (0 : Fin 2) * 5000 + 1 * (y 0).val = win3_4.index t (0 : Fin 2) * 5000 + (y 0).val; omega
  · intro y; show win3_0.index t (1 : Fin 2) * 128 + 1 * (y 1).val = (y 1).val; omega
  · exact (fun y => funext fun a => Fin.ext (by
      match a with
      | ⟨0, _⟩ => show win3_1.index t (0 : Fin 2) * 128 + 1 * (y 0).val = (y 0).val; omega
      | ⟨1, _⟩ => show win3_1.index t (1 : Fin 2) * 128 + 1 * (y 1).val = (y 1).val; omega))
  · exact (fun y => funext fun a => Fin.ext (by
      match a with
      | ⟨0, _⟩ => show win3_2.index t (0 : Fin 2) * 1 + 1 * (y 0).val = (y 0).val; omega
      | ⟨1, _⟩ => show win3_2.index t (1 : Fin 2) * 128 + 1 * (y 1).val = (y 1).val; omega))
  · exact (fun y => funext fun a => Fin.ext (by
      match a with
      | ⟨0, _⟩ => show win3_3.index t (0 : Fin 2) * 5000 + 1 * (y 0).val = win3_4.index t (0 : Fin 2) * 5000 + 1 * (y 0).val; omega
      | ⟨1, _⟩ => show win3_3.index t (1 : Fin 2) * 128 + 1 * (y 1).val = win3_4.index t (1 : Fin 2) * 128 + 1 * (y 1).val; omega))
  · intro y; show win3_4.index t (0 : Fin 2) * 5000 + 1 * (y 0).val = win3_4.index t (0 : Fin 2) * 5000 + (y 0).val; omega
  · intro y; show win3_4.index t (1 : Fin 2) * 128 + 1 * (y 1).val = (y 1).val; omega

/-- An index of the array is in point t's band iff each coordinate is in the band's range. -/
theorem mem_blk (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v71).slice (win3_4.rect t)).set ↔ _
  rw [View.set_slice_whole, Rect.mem_set_unit]
  exact Iff.rfl

/-- The ten bands cover the array: row r is in band r / 5000. -/
theorem cover (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ := idx_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The region's result array after its run is the layer of the arrays the region found. -/
theorem final (c : Dev nD) :
    (dat3 V c).arrAt 4 cfg3.N = ResGcn.denseRes (V c main_v65) (V c main_v70) (V c main_v68) (V c main_v52) :=
  (dat3 V c).arrAt_eq_of_cover 4 (ResGcn.denseRes (V c main_v65) (V c main_v70) (V c main_v68) (V c main_v52)) (fun t _ => flushed_eq V c t) (cover)

end Cert.KernelIdeal.Blocks3

end
-- ==== Proof.Blocks4.lean ====
/-
  Region 4 (the output step), from bands to the whole array.

  The region's grid has ten points.  Point t loads rows 5000 t … 5000 t + 4999 of the last layer's array, the whole
  128 × 40 matrix and the whole one-row bias, and writes band · W + b to the same rows of the 50000 × 40 result array.
  Row r of that value depends on row r of the band only, so what point t writes is band t of the one array
  "affine A W b" of all 50000 rows.  The ten bands are disjoint and cover the result array, so after the run the
  result array IS "affine A W b", with A, W, b the arrays as the region found them.
-/
import proofs.«167338_j15195594293931_1_alg».proof.Proof.Gen.KernelIdeal.Frame
import proofs.«167338_j15195594293931_1_alg».proof.Proof.Spec
import Idealize.ShloMosaic.Lib.Pipeline.Value
import Idealize.ShloMosaic.Lib.ValueIdx

set_option maxRecDepth 16384

noncomputable section

namespace Cert.KernelIdeal.Blocks4

open Cert.KernelIdeal Cert.KernelIdeal.Gen
open Idealize.ShloMosaic Idealize.ShloMosaic.TcCoe Idealize.SL.Sem Idealize.ShloMosaic.ValueIdx
open Idealize.ShloMosaic.Pipeline (Dat)

-- the region's buffer contents at entry: any
variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its loaded blocks is the layer on the band. -/
theorem pay (x0 : Vec Ideal S5000x128 .f32) (x1 : Vec Ideal S128x40 .f32) (x2 : Vec Ideal S1x40 .f32) :
    k4_pay1 x0 x1 x2 = ResGcn.affine x0 x1 x2 := by
  unfold k4_pay1
  simp only [shapeCast_self]
  exact ResGcn.body_affine dot_S5000x128_S128x40_S5000x40_1_0_0_1_n_n none rfl rfl rfl rfl rfl rfl _ _ x2 broadcasts_S1x40_S5000x40

/-- A band of 5000 rows, "o" rows down, read through index maps: the matrix and the bias row are read whole. -/
theorem band (A : GcnSpec.Arr 50000 128) (W : GcnSpec.Arr 128 40) (B : GcnSpec.Arr 1 40) (o : ℕ)
    (e0 : S5000x128.Idx → S50000x128.Idx) (e1 : S128x40.Idx → S128x40.Idx) (e2 : S1x40.Idx → S1x40.Idx)
    (e4 : S5000x40.Idx → S50000x40.Idx)
    (h00 : ∀ y, (e0 y 0).val = o + (y 0).val) (h01 : ∀ y, (e0 y 1).val = (y 1).val)
    (h1 : ∀ y, e1 y = y) (h2 : ∀ y, e2 y = y)
    (h40 : ∀ y, (e4 y 0).val = o + (y 0).val) (h41 : ∀ y, (e4 y 1).val = (y 1).val) (j : S5000x40.Idx) :
    ResGcn.affine (fun y => A (e0 y)) (fun y => W (e1 y)) (fun y => B (e2 y)) j
      = ResGcn.affine A W B (e4 j) := by
  have hW : (fun y => W (e1 y)) = W := funext fun y => congrArg W (h1 y)
  have hB : (fun y => B (e2 y)) = B := funext fun y => congrArg B (h2 y)
  rw [hW, hB]
  exact ResGcn.affine_band A W B o e0 e4 h00 h01 h40 h41 j

/-- The index maps, decided over the ten points: the row-band windows move together, the other windows stay. -/
theorem idx_facts : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (1 : Fin 2) = 0
    ∧ win4_3.index t (0 : Fin 2) ≤ 9 :=
  (by decide +kernel : ∀ t : Fin grid4.N, _)

/-- Every band is some point's. -/
theorem idx_onto : ∀ q0 : Fin 10, ∃ t : Fin cfg4.N, win4_3.index t = ![q0.val, 0] :=
  (by decide +kernel : ∀ q0 : Fin 10, ∃ t : Fin grid4.N, win4_3.index t = ![q0.val, 0])

/-- What point t writes back is band t of the layer of the whole arrays as the region finds them. -/
theorem flushed_eq (c : Dev nD) (t : Fin cfg4.N) :
    (dat4 V c).flushed 3 t = ((cfg4.win 3).blk t).view.read (Elt Ideal) (ResGcn.affine (V c main_v71) (V c main_arg8) (V c main_v72)) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x40) hz, View.ld_unit_zero (S := S1x40) hz]
  rw [pay]
  obtain ⟨e0, e1, e2, e3, e4, e5, e6, e7⟩ := idx_facts t
  funext j
  show ResGcn.affine (fun y => V c main_v71 (((cfg4.win 0).blk t).view.emb y)) (fun y => V c main_arg8 (((cfg4.win 1).blk t).view.emb y)) (fun y => V c main_v72 (((cfg4.win 2).blk t).view.emb y)) j
    = ResGcn.affine (V c main_v71) (V c main_arg8) (V c main_v72) (((cfg4.win 3).blk t).view.emb j)
  refine band (V c main_v71) (V c main_arg8) (V c main_v72) (win4_3.index t (0 : Fin 2) * 5000)
    (((cfg4.win 0).blk t).view.emb) (((cfg4.win 1).blk t).view.emb) (((cfg4.win 2).blk t).view.emb) (((cfg4.win 3).blk t).view.emb) ?_ ?_ ?_ ?_ ?_ ?_ j
  · intro y; show win4_0.index t (0 : Fin 2) * 5000 + 1 * (y 0).val = win4_3.index t (0 : Fin 2) * 5000 + (y 0).val; omega
  · intro y; show win4_0.index t (1 : Fin 2) * 128 + 1 * (y 1).val = (y 1).val; omega
  · exact (fun y => funext fun a => Fin.ext (by
      match a with
      | ⟨0, _⟩ => show win4_1.index t (0 : Fin 2) * 128 + 1 * (y 0).val = (y 0).val; omega
      | ⟨1, _⟩ => show win4_1.index t (1 : Fin 2) * 40 + 1 * (y 1).val = (y 1).val; omega))
  · exact (fun y => funext fun a => Fin.ext (by
      match a with
      | ⟨0, _⟩ => show win4_2.index t (0 : Fin 2) * 1 + 1 * (y 0).val = (y 0).val; omega
      | ⟨1, _⟩ => show win4_2.index t (1 : Fin 2) * 40 + 1 * (y 1).val = (y 1).val; omega))
  · intro y; show win4_3.index t (0 : Fin 2) * 5000 + 1 * (y 0).val = win4_3.index t (0 : Fin 2) * 5000 + (y 0).val; omega
  · intro y; show win4_3.index t (1 : Fin 2) * 40 + 1 * (y 1).val = (y 1).val; omega

/-- An index of the array is in point t's band iff each coordinate is in the band's range. -/
theorem mem_blk (t : Fin cfg4.N) (i : S50000x40.Idx) :
    i ∈ ((cfg4.win 3).blk t).view.set ↔ ∀ a : Fin 2, win4_3.index t a * S5000x40.size a ≤ (i a).val ∧ (i a).val < win4_3.index t a * S5000x40.size a + S5000x40.size a := by
  show i ∈ ((View.whole main_v73).slice (win4_3.rect t)).set ↔ _
  rw [View.set_slice_whole, Rect.mem_set_unit]
  exact Iff.rfl

/-- The ten bands cover the array: row r is in band r / 5000. -/
theorem cover (i : S50000x40.Idx) :
    ∃ t : Fin cfg4.N, (cfg4.win 3).flush t = true ∧ i ∈ ((cfg4.win 3).blk t).view.set := by
  have hi0 : (i 0).val < 50000 := (i 0).isLt
  have hi1 : (i 1).val < 40 := (i 1).isLt
  obtain ⟨t, ht⟩ := idx_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 40 ≤ (i 1).val ∧ (i 1).val < win4_3.index t (1 : Fin 2) * 40 + 40; omega

/-- The region's result array after its run is the layer of the arrays the region found. -/
theorem final (c : Dev nD) :
    (dat4 V c).arrAt 3 cfg4.N = ResGcn.affine (V c main_v71) (V c main_arg8) (V c main_v72) :=
  (dat4 V c).arrAt_eq_of_cover 3 (ResGcn.affine (V c main_v71) (V c main_arg8) (V c main_v72)) (fun t _ => flushed_eq V c t) (cover)

end Cert.KernelIdeal.Blocks4

end
-- ==== Proof.RefStages.lean ====
/-
  The reference, layer by layer.

  The reference's program is read one operation at a time by its stage functions: the value each operation writes, as a
  function of the arguments x0 … x9 (node features, edge sources, edge destinations, edge weights, the input layer's
  matrix and bias, the stacked matrices and biases of the three residual layers, the output matrix and bias).

  The aggregation stage — wrap negative sources, gather the source rows, scale each by its edge's weight, add into the
  destination rows of a zero array — is spelt four times, with the same operations.  Named once, it is the stage of the
  first layer, a function "agg" of the array it gathers from and of the three edge vectors; the three later spellings are
  that function of the previous layer's array ("agg1", "agg2", "agg3").

  Between aggregations every layer is a dense layer of the specification: product with the layer's matrix, the bias
  vector made a one-row array and added to every row, maximum with zero, and (residual layers) the previous layer's
  array added ("layer0" … "layer3"); the result is the last array times the output matrix plus the output bias
  ("out").  No equation here needs finiteness.
-/
import proofs.«167338_j15195594293931_1_alg».proof.Proof.Gen.ReferenceIdeal.Read
import proofs.«167338_j15195594293931_1_alg».proof.Proof.Spec

noncomputable section

namespace ResGcn.Ref

open Cert.ReferenceIdeal Cert.ReferenceIdeal.Gen Cert.ReferenceIdeal.Read Idealize.ShloMosaic Idealize.ShloMosaic.TcCoe

variable (x0 : (⟨S50000x128, .f32⟩ : BufTy).Contents (Elt Ideal)) (x1 x2 : (⟨S1600000, .i32⟩ : BufTy).Contents (Elt Ideal))
  (x3 : (⟨S1600000, .f32⟩ : BufTy).Contents (Elt Ideal)) (x4 : (⟨S128x128, .f32⟩ : BufTy).Contents (Elt Ideal))
  (x5 : (⟨S128, .f32⟩ : BufTy).Contents (Elt Ideal)) (x6 : (⟨S3x128x128, .f32⟩ : BufTy).Contents (Elt Ideal))
  (x7 : (⟨S3x128, .f32⟩ : BufTy).Contents (Elt Ideal)) (x8 : (⟨S128x40, .f32⟩ : BufTy).Contents (Elt Ideal))
  (x9 : (⟨S40, .f32⟩ : BufTy).Contents (Elt Ideal))

/-! ## The aggregation, once -/

/-- The aggregation of an array "h" along the edges: row d of the result is the sum over the edges into d of the
    edge's weight times row (source of the edge) of "h". -/
def agg (h : (⟨S50000x128, .f32⟩ : BufTy).Contents (Elt Ideal)) (src dst : (⟨S1600000, .i32⟩ : BufTy).Contents (Elt Ideal))
    (w : (⟨S1600000, .f32⟩ : BufTy).Contents (Elt Ideal)) : (⟨S50000x128, .f32⟩ : BufTy).Contents (Elt Ideal) :=
  val_main_v12 (F := Ideal) h src dst w

theorem agg0 : val_main_v12 (F := Ideal) x0 x1 x2 x3 = agg x0 x1 x2 x3 := rfl

theorem agg1 : val_main_v34 (F := Ideal) x0 x1 x2 x3 x4 x5 = agg (val_main_v17 (F := Ideal) x0 x1 x2 x3 x4 x5) x1 x2 x3 := rfl

theorem agg2 : val_main_v57 (F := Ideal) x0 x1 x2 x3 x4 x5 x6 x7 = agg (val_main_v40 (F := Ideal) x0 x1 x2 x3 x4 x5 x6 x7) x1 x2 x3 := rfl

theorem agg3 : val_main_v80 (F := Ideal) x0 x1 x2 x3 x4 x5 x6 x7 = agg (val_main_v63 (F := Ideal) x0 x1 x2 x3 x4 x5 x6 x7) x1 x2 x3 := rfl

/-! ## The dense layers -/

variable (hsc : S128.ShapeCasts S1x128) (hsc' : S40.ShapeCasts S1x40)

theorem layer0 : val_main_v17 (F := Ideal) x0 x1 x2 x3 x4 x5 = ResGcn.dense (agg x0 x1 x2 x3) x4 (shapeCast S1x128 x5 hsc) := by
  unfold val_main_v17 val_main_v16 val_main_v15 val_main_v14 val_main_v13 val_main_call0_v0 val_main_call0_cst
  exact ResGcn.host_dense dot_S50000x128_S128x128_S50000x128_1_0_0_1_n_n none rfl rfl rfl rfl rfl rfl _ x4 x5
    bcast_S128_S1x128_1 bcast_S1x128_S50000x128_0_1 hsc bcast_S_S50000x128

theorem layer1 : val_main_v40 (F := Ideal) x0 x1 x2 x3 x4 x5 x6 x7 = ResGcn.denseRes (val_main_v34 (F := Ideal) x0 x1 x2 x3 x4 x5) (val_main_v19 (F := Ideal) x6)
      (shapeCast S1x128 (val_main_v21 (F := Ideal) x7) hsc) (val_main_v17 (F := Ideal) x0 x1 x2 x3 x4 x5) := by
  unfold val_main_v40 val_main_v39 val_main_v38 val_main_v37 val_main_v36 val_main_v35 val_main_call1_v0 val_main_call1_cst
  unfold ResGcn.denseRes
  rw [← ResGcn.host_dense dot_S50000x128_S128x128_S50000x128_1_0_0_1_n_n none rfl rfl rfl rfl rfl rfl _ _ _
    bcast_S128_S1x128_1 bcast_S1x128_S50000x128_0_1 hsc bcast_S_S50000x128]
  rfl

theorem layer2 : val_main_v63 (F := Ideal) x0 x1 x2 x3 x4 x5 x6 x7 = ResGcn.denseRes (val_main_v57 (F := Ideal) x0 x1 x2 x3 x4 x5 x6 x7) (val_main_v42 (F := Ideal) x6)
      (shapeCast S1x128 (val_main_v44 (F := Ideal) x7) hsc) (val_main_v40 (F := Ideal) x0 x1 x2 x3 x4 x5 x6 x7) := by
  unfold val_main_v63 val_main_v62 val_main_v61 val_main_v60 val_main_v59 val_main_v58 val_main_call2_v0 val_main_call2_cst
  unfold ResGcn.denseRes
  rw [← ResGcn.host_dense dot_S50000x128_S128x128_S50000x128_1_0_0_1_n_n none rfl rfl rfl rfl rfl rfl _ _ _
    bcast_S128_S1x128_1 bcast_S1x128_S50000x128_0_1 hsc bcast_S_S50000x128]
  rfl

theorem layer3 : val_main_v86 (F := Ideal) x0 x1 x2 x3 x4 x5 x6 x7 = ResGcn.denseRes (val_main_v80 (F := Ideal) x0 x1 x2 x3 x4 x5 x6 x7) (val_main_v65 (F := Ideal) x6)
      (shapeCast S1x128 (val_main_v67 (F := Ideal) x7) hsc) (val_main_v63 (F := Ideal) x0 x1 x2 x3 x4 x5 x6 x7) := by
  unfold val_main_v86 val_main_v85 val_main_v84 val_main_v83 val_main_v82 val_main_v81 val_main_call3_v0 val_main_call3_cst
  unfold ResGcn.denseRes
  rw [← ResGcn.host_dense dot_S50000x128_S128x128_S50000x128_1_0_0_1_n_n none rfl rfl rfl rfl rfl rfl _ _ _
    bcast_S128_S1x128_1 bcast_S1x128_S50000x128_0_1 hsc bcast_S_S50000x128]
  rfl

theorem out : val_main_v90 (F := Ideal) x0 x1 x2 x3 x4 x5 x6 x7 x8 x9 = ResGcn.affine (val_main_v86 (F := Ideal) x0 x1 x2 x3 x4 x5 x6 x7) x8 (shapeCast S1x40 x9 hsc') := by
  unfold val_main_v90 val_main_v89 val_main_v88 val_main_v87
  exact ResGcn.host_affine dot_S50000x128_S128x40_S50000x40_1_0_0_1_n_n none rfl rfl rfl rfl rfl rfl _ x8 x9
    bcast_S40_S1x40_1 bcast_S1x40_S50000x40_0_1 hsc'

end ResGcn.Ref

end
-- ==== Proof.Chain.lean ====
/-
  The idealized kernel's boundary contents, read segment by segment.

  The program alternates stretches of host operations with regions.  A stretch before a region recomputes the
  aggregation of the previous layer's array along the edges (the same operations as the reference's, so the same
  function "agg" of the same operands), slices the layer's matrix and bias out of the stacked arguments, and leaves every
  other buffer alone; a region replaces its result array by the layer of the arrays it found (the five region modules)
  and leaves every other buffer alone.  No segment writes an argument, so at every boundary the arguments hold their
  launch contents.

  Walking the ten segments in order, each region's result array is identified with the reference's array of the same
  layer, as a function of the ten arguments: the input layer's array after region 0, the three residual layers' arrays
  after regions 1, 2 and 3, and the network's result after region 4.  Each step uses the previous step, the reading of
  the stretch in between, and the reference's layer equation read backwards.
-/
import proofs.«167338_j15195594293931_1_alg».proof.Proof.Gen.KernelIdeal.Frame
import proofs.«167338_j15195594293931_1_alg».proof.Proof.Blocks0
import proofs.«167338_j15195594293931_1_alg».proof.Proof.Blocks1
import proofs.«167338_j15195594293931_1_alg».proof.Proof.Blocks2
import proofs.«167338_j15195594293931_1_alg».proof.Proof.Blocks3
import proofs.«167338_j15195594293931_1_alg».proof.Proof.Blocks4
import proofs.«167338_j15195594293931_1_alg».proof.Proof.RefStages
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg) (c : Dev nD)

/-! ## The arguments keep their launch contents at every boundary

  (the node features and the input bias are read by the first stretch only, straight from the launch memory; the input
  layer's matrix is read by region 0 only, at the first boundary) -/

abbrev args : List (Ref sig .tc) :=
  [main_arg1, main_arg2, main_arg3, main_arg6, main_arg7, main_arg8, main_arg9]

theorem W0_args (b : Ref sig .tc) (hb : b ∈ args) :
    W0 m ρ c (Proc.devRef .tc b) = m ((c : Thread nD τ).loc b) := rfl

theorem W1_args (b : Ref sig .tc) (hb : b ∈ args) :
    W1 m ρ c (Proc.devRef .tc b) = m ((c : Thread nD τ).loc b) := by
  have hp := W0_args m ρ c b hb
  simp only [args, List.mem_cons, List.mem_nil_iff, or_false] at hb
  rcases hb with rfl | rfl | rfl | rfl | rfl | rfl | rfl <;>
  · refine Eq.trans ?_ hp
    show StableHlo.after hostOps0 (W0 m ρ c) _ = _
    after_results_simp

theorem W2_args (b : Ref sig .tc) (hb : b ∈ args) :
    W2 m ρ c (Proc.devRef .tc b) = m ((c : Thread nD τ).loc b) := by
  refine (W2_of_ne m ρ c b ?_).trans (W1_args m ρ c b hb)
  simp only [args, List.mem_cons, List.mem_nil_iff, or_false] at hb
  rcases hb with rfl | rfl | rfl | rfl | rfl | rfl | rfl <;> decide

theorem W3_args (b : Ref sig .tc) (hb : b ∈ args) :
    W3 m ρ c (Proc.devRef .tc b) = m ((c : Thread nD τ).loc b) := by
  have hp := W2_args m ρ c b hb
  simp only [args, List.mem_cons, List.mem_nil_iff, or_false] at hb
  rcases hb with rfl | rfl | rfl | rfl | rfl | rfl | rfl <;>
  · refine Eq.trans ?_ hp
    show StableHlo.after hostOps1 (W2 m ρ c) _ = _
    after_results_simp

theorem W4_args (b : Ref sig .tc) (hb : b ∈ args) :
    W4 m ρ c (Proc.devRef .tc b) = m ((c : Thread nD τ).loc b) := by
  refine (W4_of_ne m ρ c b ?_).trans (W3_args m ρ c b hb)
  simp only [args, List.mem_cons, List.mem_nil_iff, or_false] at hb
  rcases hb with rfl | rfl | rfl | rfl | rfl | rfl | rfl <;> decide

theorem W5_args (b : Ref sig .tc) (hb : b ∈ args) :
    W5 m ρ c (Proc.devRef .tc b) = m ((c : Thread nD τ).loc b) := by
  have hp := W4_args m ρ c b hb
  simp only [args, List.mem_cons, List.mem_nil_iff, or_false] at hb
  rcases hb with rfl | rfl | rfl | rfl | rfl | rfl | rfl <;>
  · refine Eq.trans ?_ hp
    show StableHlo.after hostOps2 (W4 m ρ c) _ = _
    after_results_simp

theorem W6_args (b : Ref sig .tc) (hb : b ∈ args) :
    W6 m ρ c (Proc.devRef .tc b) = m ((c : Thread nD τ).loc b) := by
  refine (W6_of_ne m ρ c b ?_).trans (W5_args m ρ c b hb)
  simp only [args, List.mem_cons, List.mem_nil_iff, or_false] at hb
  rcases hb with rfl | rfl | rfl | rfl | rfl | rfl | rfl <;> decide

theorem W7_args (b : Ref sig .tc) (hb : b ∈ args) :
    W7 m ρ c (Proc.devRef .tc b) = m ((c : Thread nD τ).loc b) := by
  have hp := W6_args m ρ c b hb
  simp only [args, List.mem_cons, List.mem_nil_iff, or_false] at hb
  rcases hb with rfl | rfl | rfl | rfl | rfl | rfl | rfl <;>
  · refine Eq.trans ?_ hp
    show StableHlo.after hostOps3 (W6 m ρ c) _ = _
    after_results_simp

theorem W8_args (b : Ref sig .tc) (hb : b ∈ args) :
    W8 m ρ c (Proc.devRef .tc b) = m ((c : Thread nD τ).loc b) := by
  refine (W8_of_ne m ρ c b ?_).trans (W7_args m ρ c b hb)
  simp only [args, List.mem_cons, List.mem_nil_iff, or_false] at hb
  rcases hb with rfl | rfl | rfl | rfl | rfl | rfl | rfl <;> decide

theorem W9_args (b : Ref sig .tc) (hb : b ∈ args) :
    W9 m ρ c (Proc.devRef .tc b) = m ((c : Thread nD τ).loc b) := by
  have hp := W8_args m ρ c b hb
  simp only [args, List.mem_cons, List.mem_nil_iff, or_false] at hb
  rcases hb with rfl | rfl | rfl | rfl | rfl | rfl | rfl <;>
  · refine Eq.trans ?_ hp
    show StableHlo.after hostOps4 (W8 m ρ c) _ = _
    after_results_simp

/-! ## The input layer: the first stretch, then region 0 -/

theorem r0_agg : V1 m ρ c main_v13 = ResGcn.Ref.agg (m ((c : Thread nD τ).loc main_arg0)) (m ((c : Thread nD τ).loc main_arg1)) (m ((c : Thread nD τ).loc main_arg2)) (m ((c : Thread nD τ).loc main_arg3)) := by
  show StableHlo.after hostOps0 (W0 m ρ c) (Proc.devRef .tc main_v13) = _
  after_results_simp
  rfl

theorem r0_mat : V1 m ρ c main_arg4 = (m ((c : Thread nD τ).loc main_arg4)) := by
  show StableHlo.after hostOps0 (W0 m ρ c) (Proc.devRef .tc main_arg4) = _
  after_results_simp

theorem r0_bias : V1 m ρ c main_v0 = shapeCast S1x128 (m ((c : Thread nD τ).loc main_arg5)) shapeCasts_S128_S1x128 := by
  show StableHlo.after hostOps0 (W0 m ρ c) (Proc.devRef .tc main_v0) = _
  after_results_simp
  rfl

/-- After region 0 its result array is the reference's input-layer array of the same arguments. -/
theorem k0 : W2 m ρ c (Proc.devRef .tc main_v14) = val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [ResGcn.Ref.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) shapeCasts_S128_S1x128]
  exact (W2_arr m ρ c 3).trans ((Blocks0.final (V1 m ρ) c).trans
    (by rw [r0_agg m ρ c, r0_mat m ρ c, r0_bias m ρ c]))

/-! ## Residual layer 1: the stretch before region 1, then the region -/

theorem r1_agg : V3 m ρ c main_v27 = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have e : V3 m ρ c main_v27 = ResGcn.Ref.agg (W2 m ρ c (Proc.devRef .tc main_v14)) (W2 m ρ c (Proc.devRef .tc main_arg1))
      (W2 m ρ c (Proc.devRef .tc main_arg2)) (W2 m ρ c (Proc.devRef .tc main_arg3)) := by
    show StableHlo.after hostOps1 (W2 m ρ c) (Proc.devRef .tc main_v27) = _
    after_results_simp
    rfl
  rw [e, k0 m ρ c, W2_args m ρ c main_arg1 (by simp [args]), W2_args m ρ c main_arg2 (by simp [args]), W2_args m ρ c main_arg3 (by simp [args])]
  exact (ResGcn.Ref.agg1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm

theorem r1_mat : V3 m ρ c main_v32 = val_main_v19 (F := Ideal) (m ((c : Thread nD τ).loc main_arg6)) := by
  have e : V3 m ρ c main_v32 = val_main_v19 (F := Ideal) (W2 m ρ c (Proc.devRef .tc main_arg6)) := by
    show StableHlo.after hostOps1 (W2 m ρ c) (Proc.devRef .tc main_v32) = _
    after_results_simp
    rfl
  rw [e, W2_args m ρ c main_arg6 (by simp [args])]

theorem r1_bias : V3 m ρ c main_v30 = shapeCast S1x128 (val_main_v21 (F := Ideal) (m ((c : Thread nD τ).loc main_arg7))) shapeCasts_S128_S1x128 := by
  have e : V3 m ρ c main_v30 = shapeCast S1x128 (val_main_v21 (F := Ideal) (W2 m ρ c (Proc.devRef .tc main_arg7))) shapeCasts_S128_S1x128 := by
    show StableHlo.after hostOps1 (W2 m ρ c) (Proc.devRef .tc main_v30) = _
    after_results_simp
    rfl
  rw [e, W2_args m ρ c main_arg7 (by simp [args])]

theorem r1_prev : V3 m ρ c main_v14 = val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have e : V3 m ρ c main_v14 = W2 m ρ c (Proc.devRef .tc main_v14) := by
    show StableHlo.after hostOps1 (W2 m ρ c) (Proc.devRef .tc main_v14) = _
    after_results_simp
  rw [e, k0 m ρ c]

/-- After region 1 its result array is the reference's layer-1 array of the same arguments. -/
theorem k1 : W4 m ρ c (Proc.devRef .tc main_v33) = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [ResGcn.Ref.layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) shapeCasts_S128_S1x128]
  exact (W4_arr m ρ c 4).trans ((Blocks1.final (V3 m ρ) c).trans
    (by rw [r1_agg m ρ c, r1_mat m ρ c, r1_bias m ρ c, r1_prev m ρ c]))

/-! ## Residual layer 2: the stretch before region 2, then the region -/

theorem r2_agg : V5 m ρ c main_v46 = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e : V5 m ρ c main_v46 = ResGcn.Ref.agg (W4 m ρ c (Proc.devRef .tc main_v33)) (W4 m ρ c (Proc.devRef .tc main_arg1))
      (W4 m ρ c (Proc.devRef .tc main_arg2)) (W4 m ρ c (Proc.devRef .tc main_arg3)) := by
    show StableHlo.after hostOps2 (W4 m ρ c) (Proc.devRef .tc main_v46) = _
    after_results_simp
    rfl
  rw [e, k1 m ρ c, W4_args m ρ c main_arg1 (by simp [args]), W4_args m ρ c main_arg2 (by simp [args]), W4_args m ρ c main_arg3 (by simp [args])]
  exact (ResGcn.Ref.agg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm

theorem r2_mat : V5 m ρ c main_v51 = val_main_v42 (F := Ideal) (m ((c : Thread nD τ).loc main_arg6)) := by
  have e : V5 m ρ c main_v51 = val_main_v42 (F := Ideal) (W4 m ρ c (Proc.devRef .tc main_arg6)) := by
    show StableHlo.after hostOps2 (W4 m ρ c) (Proc.devRef .tc main_v51) = _
    after_results_simp
    rfl
  rw [e, W4_args m ρ c main_arg6 (by simp [args])]

theorem r2_bias : V5 m ρ c main_v49 = shapeCast S1x128 (val_main_v44 (F := Ideal) (m ((c : Thread nD τ).loc main_arg7))) shapeCasts_S128_S1x128 := by
  have e : V5 m ρ c main_v49 = shapeCast S1x128 (val_main_v44 (F := Ideal) (W4 m ρ c (Proc.devRef .tc main_arg7))) shapeCasts_S128_S1x128 := by
    show StableHlo.after hostOps2 (W4 m ρ c) (Proc.devRef .tc main_v49) = _
    after_results_simp
    rfl
  rw [e, W4_args m ρ c main_arg7 (by simp [args])]

theorem r2_prev : V5 m ρ c main_v33 = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e : V5 m ρ c main_v33 = W4 m ρ c (Proc.devRef .tc main_v33) := by
    show StableHlo.after hostOps2 (W4 m ρ c) (Proc.devRef .tc main_v33) = _
    after_results_simp
  rw [e, k1 m ρ c]

/-- After region 2 its result array is the reference's layer-2 array of the same arguments. -/
theorem k2 : W6 m ρ c (Proc.devRef .tc main_v52) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [ResGcn.Ref.layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) shapeCasts_S128_S1x128]
  exact (W6_arr m ρ c 4).trans ((Blocks2.final (V5 m ρ) c).trans
    (by rw [r2_agg m ρ c, r2_mat m ρ c, r2_bias m ρ c, r2_prev m ρ c]))

/-! ## Residual layer 3: the stretch before region 3, then the region -/

theorem r3_agg : V7 m ρ c main_v65 = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e : V7 m ρ c main_v65 = ResGcn.Ref.agg (W6 m ρ c (Proc.devRef .tc main_v52)) (W6 m ρ c (Proc.devRef .tc main_arg1))
      (W6 m ρ c (Proc.devRef .tc main_arg2)) (W6 m ρ c (Proc.devRef .tc main_arg3)) := by
    show StableHlo.after hostOps3 (W6 m ρ c) (Proc.devRef .tc main_v65) = _
    after_results_simp
    rfl
  rw [e, k2 m ρ c, W6_args m ρ c main_arg1 (by simp [args]), W6_args m ρ c main_arg2 (by simp [args]), W6_args m ρ c main_arg3 (by simp [args])]
  exact (ResGcn.Ref.agg3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm

theorem r3_mat : V7 m ρ c main_v70 = val_main_v65 (F := Ideal) (m ((c : Thread nD τ).loc main_arg6)) := by
  have e : V7 m ρ c main_v70 = val_main_v65 (F := Ideal) (W6 m ρ c (Proc.devRef .tc main_arg6)) := by
    show StableHlo.after hostOps3 (W6 m ρ c) (Proc.devRef .tc main_v70) = _
    after_results_simp
    rfl
  rw [e, W6_args m ρ c main_arg6 (by simp [args])]

theorem r3_bias : V7 m ρ c main_v68 = shapeCast S1x128 (val_main_v67 (F := Ideal) (m ((c : Thread nD τ).loc main_arg7))) shapeCasts_S128_S1x128 := by
  have e : V7 m ρ c main_v68 = shapeCast S1x128 (val_main_v67 (F := Ideal) (W6 m ρ c (Proc.devRef .tc main_arg7))) shapeCasts_S128_S1x128 := by
    show StableHlo.after hostOps3 (W6 m ρ c) (Proc.devRef .tc main_v68) = _
    after_results_simp
    rfl
  rw [e, W6_args m ρ c main_arg7 (by simp [args])]

theorem r3_prev : V7 m ρ c main_v52 = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e : V7 m ρ c main_v52 = W6 m ρ c (Proc.devRef .tc main_v52) := by
    show StableHlo.after hostOps3 (W6 m ρ c) (Proc.devRef .tc main_v52) = _
    after_results_simp
  rw [e, k2 m ρ c]

/-- After region 3 its result array is the reference's layer-3 array of the same arguments. -/
theorem k3 : W8 m ρ c (Proc.devRef .tc main_v71) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [ResGcn.Ref.layer3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) shapeCasts_S128_S1x128]
  exact (W8_arr m ρ c 4).trans ((Blocks3.final (V7 m ρ) c).trans
    (by rw [r3_agg m ρ c, r3_mat m ρ c, r3_bias m ρ c, r3_prev m ρ c]))

/-! ## The output step: the last stretch, then region 4 -/

theorem r4_prev : V9 m ρ c main_v71 = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e : V9 m ρ c main_v71 = W8 m ρ c (Proc.devRef .tc main_v71) := by
    show StableHlo.after hostOps4 (W8 m ρ c) (Proc.devRef .tc main_v71) = _
    after_results_simp
  rw [e, k3 m ρ c]

theorem r4_mat : V9 m ρ c main_arg8 = (m ((c : Thread nD τ).loc main_arg8)) := W9_args m ρ c main_arg8 (by simp [args])

theorem r4_bias : V9 m ρ c main_v72 = shapeCast S1x40 (m ((c : Thread nD τ).loc main_arg9)) shapeCasts_S40_S1x40 := by
  have e : V9 m ρ c main_v72 = shapeCast S1x40 (W8 m ρ c (Proc.devRef .tc main_arg9)) shapeCasts_S40_S1x40 := by
    show StableHlo.after hostOps4 (W8 m ρ c) (Proc.devRef .tc main_v72) = _
    after_results_simp
    rfl
  rw [e, W8_args m ρ c main_arg9 (by simp [args])]

/-- After region 4 the program's result array is the reference's result of the same arguments. -/
theorem k4 : W10 m ρ c (Proc.devRef .tc main_v73) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [ResGcn.Ref.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) shapeCasts_S40_S1x40]
  exact (W10_arr m ρ c 3).trans ((Blocks4.final (V9 m ρ) c).trans
    (by rw [r4_prev m ρ c, r4_mat m ρ c, r4_bias m ρ c]))

end Cert.KernelIdeal.Chain

end
-- ==== Proof.lean ====
/-
  A residual graph-convolution network, computed two ways, gives the same array of extended reals.

  Both programs take node features x (50000 × 128), a weighted edge list (sources, destinations, weights; 1600000
  edges) and the parameters of five dense steps.  One layer is

      aggregate:  A (d, ·) = Σ over the edges e into d of  weight e · h (source e, ·)     (h the previous layer's array)
      dense:      max (A · W + b, 0),   and in the three residual layers  + h,

  and the result is the last array times a 128 × 40 matrix plus a bias.

  The reference does every step on whole arrays.  The kernel program does the aggregation with the same host
  operations as the reference, and each dense step as a pipelined region over ten bands of 5000 rows: a band of the
  aggregated array times the matrix (the operands narrowed to a shorter float format first, which on the extended reals
  changes nothing), plus the bias row, maximum with zero, plus the same band of the previous layer's array.

  Why the two agree.  A dense step is row-wise: row r of its result depends on row r of its array operands only, so
  the ten bands a region writes are the ten bands of the ONE array the reference computes (Spec, Blocks0 … Blocks4).  A
  matrix unit's product onto the zero accumulator and the host's dot_general are the same sum Σ_l A (r, l) · W (l, c),
  and a one-row bias block broadcast over the rows is the bias vector broadcast in two steps (Spec).  The aggregation is
  the same function of the same operands on both sides and is never opened (RefStages, Chain).  Walking the kernel
  program's ten segments, each region's result array is the reference's array of that layer (Chain); the last one is
  the claim.  Both sides are the same sums of the same products in the same order, so no step needs the inputs to be
  finite, and the precondition is not used.

  The three frames are the generated frame certificates of the two kernel programs and the reference's generated run;
  the kernel's idealization rewrote no operation, so "preserves" has nothing to state.
-/
import proofs.«167338_j15195594293931_1_alg».proof.Defs
import proofs.«167338_j15195594293931_1_alg».proof.Proof.Gen.Kernel
import proofs.«167338_j15195594293931_1_alg».proof.Proof.Gen.Kernel.Skeleton
import proofs.«167338_j15195594293931_1_alg».proof.Proof.Gen.Kernel.Launch
import proofs.«167338_j15195594293931_1_alg».proof.Proof.Gen.Kernel.Points
import proofs.«167338_j15195594293931_1_alg».proof.Proof.Gen.Kernel.Frame
import proofs.«167338_j15195594293931_1_alg».proof.Proof.Gen.KernelIdeal
import proofs.«167338_j15195594293931_1_alg».proof.Proof.Gen.KernelIdeal.Skeleton
import proofs.«167338_j15195594293931_1_alg».proof.Proof.Gen.KernelIdeal.Launch
import proofs.«167338_j15195594293931_1_alg».proof.Proof.Gen.KernelIdeal.Points
import proofs.«167338_j15195594293931_1_alg».proof.Proof.Gen.KernelIdeal.Frame
import proofs.«167338_j15195594293931_1_alg».proof.Proof.Gen.ReferenceIdeal
import proofs.«167338_j15195594293931_1_alg».proof.Proof.Gen.Pre_finite_inputs
import proofs.«167338_j15195594293931_1_alg».proof.Proof.Gen.ReferenceIdeal.Run
import proofs.«167338_j15195594293931_1_alg».proof.Proof.Gen.ReferenceIdeal.Read
import proofs.«167338_j15195594293931_1_alg».proof.Proof.KernelRun
import proofs.«167338_j15195594293931_1_alg».proof.Proof.Chain
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals the kernel program's result array is the reference's result as a function of the kernel
    program's own arguments (the walk through its ten segments), and the reference's result is that function of the
    reference's arguments, which agree. -/
theorem algebraic : Cert.algebraic_KernelIdeal_ReferenceIdeal := by
  intro m ρ m' ρ' _ hagree
  refine ⟨fun c => Cert.ReferenceIdeal.Read.val_main_v90 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.k4 m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v90_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
